-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S256 : Shape := ⟨1, ![256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x256 .f32) (main_arg8 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S4x4096x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S4x4096x256 : Shape := ⟨3, ![4, 4096, 256]⟩
abbrev S256x256 : Shape := ⟨2, ![256, 256]⟩
abbrev S256 : Shape := ⟨1, ![256]⟩
abbrev S4x256x256 : Shape := ⟨3, ![4, 256, 256]⟩
abbrev S1x512x256 : Shape := ⟨3, ![1, 512, 256]⟩
abbrev S1x256x256 : Shape := ⟨3, ![1, 256, 256]⟩
abbrev S512x256 : Shape := ⟨2, ![512, 256]⟩
abbrev S1x256 : Shape := ⟨2, ![1, 256]⟩

abbrev nBuf : Space → Nat
  | .hbm => 11
  | .vmem => 19
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S4x256x256, .f32⟩
  | .hbm, ⟨10, _⟩ => ⟨S4x4096x256, .f32⟩
  | .local _ .vmem, ⟨0, _⟩ => ⟨S1x512x256, .f32⟩
  | .local _ .vmem, ⟨1, _⟩ => ⟨S1x512x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S1x256x256, .f32⟩
  | .local _ .vmem, ⟨7, _⟩ => ⟨S1x256x256, .f32⟩
  | .local _ .vmem, ⟨8, _⟩ => ⟨S256x256, .f32⟩
  | .local _ .vmem, ⟨9, _⟩ => ⟨S1x512x256, .f32⟩
  | .local _ .vmem, ⟨10, _⟩ => ⟨S1x512x256, .f32⟩
  | .local _ .vmem, ⟨11, _⟩ => ⟨S256x256, .f32⟩
  | .local _ .vmem, ⟨12, _⟩ => ⟨S256, .f32⟩
  | .local _ .vmem, ⟨13, _⟩ => ⟨S1x256x256, .f32⟩
  | .local _ .vmem, ⟨14, _⟩ => ⟨S1x256x256, .f32⟩
  | .local _ .vmem, ⟨15, _⟩ => ⟨S256x256, .f32⟩
  | .local _ .vmem, ⟨16, _⟩ => ⟨S256, .f32⟩
  | .local _ .vmem, ⟨17, _⟩ => ⟨S1x512x256, .f32⟩
  | .local _ .vmem, ⟨18, _⟩ => ⟨S1x512x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  shapeCasts_S512x256_S1x512x256 : S512x256.ShapeCasts S1x512x256
  dot_S512x256_S256x256_S512x256_1_1_0_0_n_n_wf : DotDims.WF S512x256 S256x256 S512x256 [1] [1] [0] [0] [] []
  dot_S512x256_S512x256_S256x256_0_0_1_1_n_n_wf : DotDims.WF S512x256 S512x256 S256x256 [0] [0] [1] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S4x4096x256.size a
  hwx0_0 : ∀ i : grid0.Coords, EltTy.bits .f32 = 32 ∨ (Rect.block (s := S4x4096x256) S1x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S4x256x256.size a
  hwx0_5 : ∀ i : grid0.Coords, EltTy.bits .f32 = 32 ∨ (Rect.block (s := S4x256x256) S1x256x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S4x4096x256.size a
  hwx1_0 : ∀ i : grid1.Coords, EltTy.bits .f32 = 32 ∨ (Rect.block (s := S4x4096x256) S1x512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x256.size a ≤ S4x256x256.size a
  hwx1_3 : ∀ i : grid1.Coords, EltTy.bits .f32 = 32 ∨ (Rect.block (s := S4x256x256) S1x256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x256.size a ≤ S4x4096x256.size a
  hwx1_6 : ∀ i : grid1.Coords, EltTy.bits .f32 = 32 ∨ (Rect.block (s := S4x4096x256) S1x512x256.size (cc1_transform_6 i) (hinb1_6 i)).WholeWords (EltTy.packing .f32)

variable [Facts₀]

def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf
def dot_S512x256_S512x256_S256x256_0_0_1_1_n_n : DotDims S512x256 S512x256 S256x256 where
  lhsContracting := [0]
  rhsContracting := [0]
  lhsNonContracting := [1]
  rhsNonContracting := [1]
  lhsBatch := []
  rhsBatch := []
  wf := dot_S512x256_S512x256_S256x256_0_0_1_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x256x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x512x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x4096x256 : Shape := ⟨3, ![4, 4096, 256]⟩
abbrev S256x256 : Shape := ⟨2, ![256, 256]⟩
abbrev S256 : Shape := ⟨1, ![256]⟩
abbrev S1x1x256 : Shape := ⟨3, ![1, 1, 256]⟩
abbrev S4x4096x4096 : Shape := ⟨3, ![4, 4096, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S4x4096x256, .f32⟩
  | .hbm, ⟨10, _⟩ => ⟨S1x1x256, .f32⟩
  | .hbm, ⟨11, _⟩ => ⟨S4x4096x256, .f32⟩
  | .hbm, ⟨12, _⟩ => ⟨S4x4096x256, .f32⟩
  | .hbm, ⟨13, _⟩ => ⟨S4x4096x256, .f32⟩
  | .hbm, ⟨14, _⟩ => ⟨S1x1x256, .f32⟩
  | .hbm, ⟨15, _⟩ => ⟨S4x4096x256, .f32⟩
  | .hbm, ⟨16, _⟩ => ⟨S4x4096x256, .f32⟩
  | .hbm, ⟨17, _⟩ => ⟨S4x4096x256, .f32⟩
  | .hbm, ⟨18, _⟩ => ⟨S1x1x256, .f32⟩
  | .hbm, ⟨19, _⟩ => ⟨S4x4096x256, .f32⟩
  | .hbm, ⟨20, _⟩ => ⟨S4x4096x256, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x256, .f32⟩
  | .hbm, ⟨26, _⟩ => ⟨S4x4096x256, .f32⟩
  | .hbm, ⟨27, _⟩ => ⟨S1x1x256, .f32⟩
  | .hbm, ⟨28, _⟩ => ⟨S4x4096x256, .f32⟩
  | .hbm, ⟨29, _⟩ => ⟨S4x4096x256, .f32⟩
  | .hbm, ⟨30, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x4096 : S_.BroadcastsInDim S4x4096x4096 (![] : Fin 0 → Fin S4x4096x4096.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.KB.R0Runs.lean ====
import proofs.«174136_j47605417509124_1_alg».proof.Proof.Gen.Kernel.Launch
import proofs.«174136_j47605417509124_1_alg».proof.Proof.Gen.Kernel.Skeleton
import proofs.«174136_j47605417509124_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the first call is entered: the parameter its half is stated at
variable (V : (c : Dev nD) → (b : Ref sig .tc) → Buf (Elt F) ((c : Thread nD τ).loc b))

/-! # The first call (the accumulation of Θᵀ·G over the eight row tiles of a batch), at the entry contents `V`

## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the
    block index has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (unfetched, the
    block index has not moved), for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional: the row-tile coordinate is zero (the scalar chain substituted). -/
abbrev cond0_0 (i : grid0.Coords) : Prop := (Scalar.cmpi .ne (Scalar.extui (Scalar.cmpi .eq (BitVec.ofNat 32 (i 1).val) 0#32)) 0#32) = 1#1
/-- It holds at the first tile of every batch — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs, the scratch, the views through which contents are stated -/
abbrev ms0_0 (t : Fin cfg0.N) : Memref sig .tc .vmem S1x512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x256 .f32 := win0_5.stage (cfg0.slots t 5)
abbrev hs0_5 (t : Fin cfg0.N) : (ms0_5 t).IsWhole := hstage0_5 ((cfg0.slots t 5).cast nbuf0_5)
/-- One staging buffer of output window 5, through which its contents are stated (the choice does not matter). -/
abbrev VO0_5 : View sig .tc .vmem S1x256x256 .f32 := (Memref.whole cc0_stg5_0 : Memref sig .tc .vmem S1x256x256 .f32).view
/-- The scratch operand: a whole scoped buffer of the kernel's own, passed beside the windows. -/
abbrev scM0_0 : Memref sig .tc .vmem S256x256 .f32 := Memref.whole cc0_scratch0
/-- The scratch the kernel carries between points, as a view: what it holds is stated through it. -/
abbrev VS0_0 : View sig .tc .vmem S256x256 .f32 := scM0_0.view

/-- The second call's ten staging buffers, each whole at some contents: scoped buffers the first call never touches. -/
def Others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class invariant with the scratch as a memref owned at some contents, the other scoped buffers beside it. -/
theorem PhiA0_eq (c : Dev nD) :
    (Pipeline.ΦA spec0 c : sProp 𝕄)
      = iprop(iprop(iprop(∃ d, owns (c : Thread nD τ) scM0_0 fullShare d) ∗ Others0 (F := F) c) ∗ (∃ r, prngReg c r)) := by
  unfold Pipeline.ΦA; rw [scopedRest0_eq]; unfold Others0; simp only [scM0_0, owns_whole]; try rfl

end Cert.Kernel.Hand

end
-- ==== Proof.KB.R0RunA.lean ====
import proofs.«174136_j47605417509124_1_alg».proof.Proof.KB.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref and in the scratch, as pieces (last first), at the first row tile of a batch (the conditional taken: the scratch is zeroed first),
    WITH the proof that on whole staging memrefs — the five inputs' at their contents, the output's at anything, the scratch at anything —
    the body runs to the continuation holding the inputs' as they were and the output's buffer and the scratch with their pieces written. -/
noncomputable def kernelRun0_A (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : cond0_0 i)
    (x0 : Vec F S1x512x256 .f32) (x1 : Vec F S256x256 .f32) (x2 : Vec F S256 .f32) (x3 : Vec F S256x256 .f32) (x4 : Vec F S256 .f32) :
    Σ' (L5 : List (View.Piece (Elt F) S1x256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__m_kernel i arg2 harg2 arg3 harg3 arg4 harg4 arg5 harg5 arg6 harg6 arg7 harg7 arg8 harg8) K } := by
  refine ⟨?_, ?_, fun E K => ?run⟩
  case run =>
    simp only [cc0__m_kernel_eq_skeleton]; unfold cc0__m_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.KB.R0RunB.lean ====
import proofs.«174136_j47605417509124_1_alg».proof.Proof.KB.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref and in the scratch, as pieces (last first), at a later row tile of a batch (the conditional not taken: the scratch holds what the tile before left, `xs0`),
    WITH the proof that on whole staging memrefs — the five inputs' at their contents, the output's at anything, the scratch at `xs0` —
    the body runs to the continuation holding the inputs' as they were and the output's buffer and the scratch with their pieces written. -/
noncomputable def kernelRun0_B (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : ¬cond0_0 i)
    (x0 : Vec F S1x512x256 .f32) (x1 : Vec F S256x256 .f32) (x2 : Vec F S256 .f32) (x3 : Vec F S256x256 .f32) (x4 : Vec F S256 .f32) (xs0 : Vec F S256x256 .f32) :
    Σ' (L5 : List (View.Piece (Elt F) S1x256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__m_kernel i arg2 harg2 arg3 harg3 arg4 harg4 arg5 harg5 arg6 harg6 arg7 harg7 arg8 harg8) K } := by
  refine ⟨?_, ?_, fun E K => ?run⟩
  case run =>
    simp only [cc0__m_kernel_eq_skeleton]; unfold cc0__m_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.KB.R0Frame.lean ====
import proofs.«174136_j47605417509124_1_alg».proof.Proof.KB.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the first call is entered: the parameter its half is stated at
variable (V : (c : Dev nD) → (b : Ref sig .tc) → Buf (Elt F) ((c : Thread nD τ).loc b))

/-! ## What each case leaves -/

/-- At the first row tile of a batch: the pieces for output window 5 tile its block (one store of the whole block), so they cover it. -/
theorem cover0_A_5 (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : cond0_0 i)
    (x0 : Vec F S1x512x256 .f32) (x1 : Vec F S256x256 .f32) (x2 : Vec F S256 .f32) (x3 : Vec F S256x256 .f32) (x4 : Vec F S256 .f32) (y : S1x256x256.Idx) :
    ∃ pc ∈ (kernelRun0_A c i arg2 harg2 arg3 harg3 arg4 harg4 arg5 harg5 arg6 harg6 arg7 harg7 arg8 harg8 hc0 x0 x1 x2 x3 x4).1, y ∈ pc.1.set :=
  View.cover_of_tiledL (kernelRun0_A c i arg2 harg2 arg3 harg3 arg4 harg4 arg5 harg5 arg6 harg6 arg7 harg7 arg8 harg8 hc0 x0 x1 x2 x3 x4).1 S1x256x256.size (by sl_kernel_rfl) y

/-- At the first row tile of a batch: what the body leaves in output window 5's staging buffer — its pieces read back over junk. -/
def out0_A_5 (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : cond0_0 i)
    (x0 : Vec F S1x512x256 .f32) (x1 : Vec F S256x256 .f32) (x2 : Vec F S256 .f32) (x3 : Vec F S256x256 .f32) (x4 : Vec F S256 .f32) : Vec F S1x256x256 .f32 :=
  VO0_5.read (Elt F) (VO0_5.writes (Elt F) VO0_5.junk (kernelRun0_A c i arg2 harg2 arg3 harg3 arg4 harg4 arg5 harg5 arg6 harg6 arg7 harg7 arg8 harg8 hc0 x0 x1 x2 x3 x4).1)

/-- At the first row tile of a batch: the pieces for the scratch cover it (every store is of the whole buffer). -/
theorem scover0_A_0 (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : cond0_0 i)
    (x0 : Vec F S1x512x256 .f32) (x1 : Vec F S256x256 .f32) (x2 : Vec F S256 .f32) (x3 : Vec F S256x256 .f32) (x4 : Vec F S256 .f32) (y : S256x256.Idx) :
    ∃ pc ∈ (kernelRun0_A c i arg2 harg2 arg3 harg3 arg4 harg4 arg5 harg5 arg6 harg6 arg7 harg7 arg8 harg8 hc0 x0 x1 x2 x3 x4).2.1, y ∈ pc.1.set :=
  View.cover_of_tiledL (kernelRun0_A c i arg2 harg2 arg3 harg3 arg4 harg4 arg5 harg5 arg6 harg6 arg7 harg7 arg8 harg8 hc0 x0 x1 x2 x3 x4).2.1 S256x256.size (by sl_kernel_rfl) y

/-- At the first row tile of a batch: what the body leaves in the scratch — its pieces read back over junk. -/
def sout0_A_0 (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : cond0_0 i)
    (x0 : Vec F S1x512x256 .f32) (x1 : Vec F S256x256 .f32) (x2 : Vec F S256 .f32) (x3 : Vec F S256x256 .f32) (x4 : Vec F S256 .f32) : Vec F S256x256 .f32 :=
  VS0_0.read (Elt F) (VS0_0.writes (Elt F) VS0_0.junk (kernelRun0_A c i arg2 harg2 arg3 harg3 arg4 harg4 arg5 harg5 arg6 harg6 arg7 harg7 arg8 harg8 hc0 x0 x1 x2 x3 x4).2.1)

/-- At a later row tile of a batch: the pieces for output window 5 tile its block (one store of the whole block), so they cover it. -/
theorem cover0_B_5 (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : ¬cond0_0 i)
    (x0 : Vec F S1x512x256 .f32) (x1 : Vec F S256x256 .f32) (x2 : Vec F S256 .f32) (x3 : Vec F S256x256 .f32) (x4 : Vec F S256 .f32) (xs0 : Vec F S256x256 .f32) (y : S1x256x256.Idx) :
    ∃ pc ∈ (kernelRun0_B c i arg2 harg2 arg3 harg3 arg4 harg4 arg5 harg5 arg6 harg6 arg7 harg7 arg8 harg8 hc0 x0 x1 x2 x3 x4 xs0).1, y ∈ pc.1.set :=
  View.cover_of_tiledL (kernelRun0_B c i arg2 harg2 arg3 harg3 arg4 harg4 arg5 harg5 arg6 harg6 arg7 harg7 arg8 harg8 hc0 x0 x1 x2 x3 x4 xs0).1 S1x256x256.size (by sl_kernel_rfl) y

/-- At a later row tile of a batch: what the body leaves in output window 5's staging buffer — its pieces read back over junk. -/
def out0_B_5 (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : ¬cond0_0 i)
    (x0 : Vec F S1x512x256 .f32) (x1 : Vec F S256x256 .f32) (x2 : Vec F S256 .f32) (x3 : Vec F S256x256 .f32) (x4 : Vec F S256 .f32) (xs0 : Vec F S256x256 .f32) : Vec F S1x256x256 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 x3 x4 xs0).1)

/-- At a later row tile of a batch: the pieces for the scratch cover it (every store is of the whole buffer). -/
theorem scover0_B_0 (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : ¬cond0_0 i)
    (x0 : Vec F S1x512x256 .f32) (x1 : Vec F S256x256 .f32) (x2 : Vec F S256 .f32) (x3 : Vec F S256x256 .f32) (x4 : Vec F S256 .f32) (xs0 : Vec F S256x256 .f32) (y : S256x256.Idx) :
    ∃ pc ∈ (kernelRun0_B c i arg2 harg2 arg3 harg3 arg4 harg4 arg5 harg5 arg6 harg6 arg7 harg7 arg8 harg8 hc0 x0 x1 x2 x3 x4 xs0).2.1, y ∈ pc.1.set :=
  View.cover_of_tiledL (kernelRun0_B c i arg2 harg2 arg3 harg3 arg4 harg4 arg5 harg5 arg6 harg6 arg7 harg7 arg8 harg8 hc0 x0 x1 x2 x3 x4 xs0).2.1 S256x256.size (by sl_kernel_rfl) y

/-- At a later row tile of a batch: what the body leaves in the scratch — its pieces read back over junk. -/
def sout0_B_0 (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : ¬cond0_0 i)
    (x0 : Vec F S1x512x256 .f32) (x1 : Vec F S256x256 .f32) (x2 : Vec F S256 .f32) (x3 : Vec F S256x256 .f32) (x4 : Vec F S256 .f32) (xs0 : Vec F S256x256 .f32) : Vec F S256x256 .f32 :=
  VS0_0.read (Elt F) (VS0_0.writes (Elt F) VS0_0.junk (kernelRun0_B c i arg2 harg2 arg3 harg3 arg4 harg4 arg5 harg5 arg6 harg6 arg7 harg7 arg8 harg8 hc0 x0 x1 x2 x3 x4 xs0).2.1)

/-! ## What output window 5's buffer and the scratch hold after each point -/

/-- THE ACCUMULATION. What output window 5's staging buffer and the carried scratch hold after the body at position `n`:
    at the first row tile of a batch (`n % 8 = 0`) the reset case run at the point's input blocks; at a later tile the
    accumulating case run at the point's input blocks over what the point before left in the scratch. -/
def outsAt0 (c : Dev nD) : (n : ℕ) → n < cfg0.N → Vec F S1x256x256 .f32 × Vec F S256x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 8 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- `outsAt0` at the first row tile of a batch: the reset case's contents. -/
theorem outsAt0_A (c : Dev nD) (t : Fin cfg0.N) (h0 : t.val % 8 = 0) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

/-- `outsAt0` at a later row tile: the accumulating case's contents, over what the point before left. -/
theorem outsAt0_B (c : Dev nD) (t : Fin cfg0.N) (h0 : ¬t.val % 8 = 0) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before position `n`: before the first point the class's (every scoped buffer at anything); afterwards
    the scratch at what the point before left in it, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Others0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ Others0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ Others0 (F := F) c) ∗ (∃ r, prngReg c r)) := by
  cases n with
  | zero => exact absurd rfl hz
  | succ n => rfl

/-! ## The pipeline's proof data -/

/-- The proof data of the first call on core `c`: the arrays as the call finds them; after the body at point `t` each
    input's buffer at its block and the output's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).q w = fullShare := rfl
theorem owed0 (c : Dev nD) : ∀ x y, (dat0 V c).owed x y = 0 := fun _ _ => rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 4800000 in
/-- The body at any point: the inputs' memrefs hold their blocks; the closed form of the condition says which case the point
    is in; the invariant hands the body the scratch at what the point before left (at anything before the first point) and
    takes it back at this point's contents; the other scoped buffers and the generator register pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5]
  by_cases h0 : t.val % 8 = 0
  · rw [outsAt0_A V c t h0]
    unfold out0_A_5 sout0_A_0; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk0 V c 0 t) (iblk0 V c 1 t) (iblk0 V c 2 t) (iblk0 V c 3 t) (iblk0 V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _)
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk0 V c 0 t) (iblk0 V c 1 t) (iblk0 V c 2 t) (iblk0 V c 3 t) (iblk0 V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _)
  · rw [outsAt0_B V c t h0]
    unfold out0_B_5 sout0_B_0; (try dsimp only)
    have hz : t.val ≠ 0 := fun e => h0 (by rw [e])
    rw [PhiS_castSucc V c t, PhiS_pos V c _ _ hz]
    iintro ⟨⟨⟨HS0, Hoth⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) (iblk0 V c 0 t) (iblk0 V c 1 t) (iblk0 V c 2 t) (iblk0 V c 3 t) (iblk0 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the scratch's named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 32 := N_0; omega)

end Cert.Kernel.Hand

end
-- ==== Proof.KB.R1Frame.lean ====
import proofs.«174136_j47605417509124_1_alg».proof.Proof.Gen.Kernel.Launch
import proofs.«174136_j47605417509124_1_alg».proof.Proof.Gen.Kernel.Skeleton
import proofs.«174136_j47605417509124_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (custom_call 1, `cc1__out_kernel`), its per-region half at any float model

The body reads six input windows whole, computes one payload from them and stores it over the whole of
output window 6. So what the body leaves in the output's buffer is a closed function `out1_6` of the six
input blocks at the point, each input's buffer holds its block at every point, and the invariant is the
plain one: the scoped rest and the generator register pass through untouched. Everything is stated at a
parameter `V`, the TensorCore's buffer contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block
    index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block
    index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): unfetched, the block
    index has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store are of a whole buffer -/

abbrev r1_0 : Rect S1x512x256 := Rect.unit (s := S1x512x256) ![0, 0, 0] S1x512x256.size inb_S1x512x256_S1x512x256_0_0_0
abbrev r1_1 : Rect S256x256 := Rect.unit (s := S256x256) ![0, 0] S256x256.size inb_S256x256_S256x256_0_0
abbrev r1_2 : Rect S256 := Rect.unit (s := S256) ![0] S256.size inb_S256_S256_0
abbrev r1_3 : Rect S1x256x256 := Rect.unit (s := S1x256x256) ![0, 0, 0] S1x256x256.size inb_S1x256x256_S1x256x256_0_0_0

/-! ## What the body leaves in the output window's buffer -/

/-- Window 6's staging buffer after the body, from the six input windows' blocks: its one store as a piece
    (the payload is the skeleton's `k1_pay1` of the six loads). -/
def out1_6 (x0 : Vec F S1x512x256 .f32) (x1 : Vec F S256x256 .f32) (x2 : Vec F S256 .f32) (x3 : Vec F S1x256x256 .f32)
    (x4 : Vec F S256x256 .f32) (x5 : Vec F S256 .f32) : Vec F S1x512x256 .f32 :=
  View.canon [⟨r1_0, k1_pay1 (View.ld x0 r1_0) (View.ld x1 r1_1) (View.ld x2 r1_2) (View.ld x3 r1_3) (View.ld x4 r1_1) (View.ld x5 r1_2)⟩]

/-- The one store tiles the buffer, so it covers it. -/
theorem cover1_6 (p0 : Vec F S1x512x256 .f32) (y : S1x512x256.Idx) :
    ∃ pc ∈ ([⟨r1_0, p0⟩] : List (View.Piece (Elt F) S1x512x256 .f32)), y ∈ pc.1.set :=
  View.cover_of_tiled [⟨r1_0, p0⟩] S1x512x256.size (by rfl) y

/-! ## The body's triple -/

set_option maxHeartbeats 1000000 in
/-- The kernel body on whole staging memrefs, the inputs' at read contents `xW` and the output's at anything, runs to
    the continuation holding the inputs' as they were and the output's at `out1_6` of the inputs'. The body also
    loads the output's buffer before storing over it; what that load reads is used by nothing. -/
theorem sound_kernel1 (c : Dev nD) (E : Set ℕ) (i : grid1.Coords)
    (arg2 : Memref sig .tc .vmem S1x512x256 .f32) (harg2 : arg2.IsWhole) (arg3 : Memref sig .tc .vmem S256x256 .f32) (harg3 : arg3.IsWhole)
    (arg4 : Memref sig .tc .vmem S256 .f32) (harg4 : arg4.IsWhole) (arg5 : Memref sig .tc .vmem S1x256x256 .f32) (harg5 : arg5.IsWhole)
    (arg6 : Memref sig .tc .vmem S256x256 .f32) (harg6 : arg6.IsWhole) (arg7 : Memref sig .tc .vmem S256 .f32) (harg7 : arg7.IsWhole)
    (arg8 : Memref sig .tc .vmem S1x512x256 .f32) (harg8 : arg8.IsWhole)
    (x0 : Vec F S1x512x256 .f32) (x1 : Vec F S256x256 .f32) (x2 : Vec F S256 .f32) (x3 : Vec F S1x256x256 .f32)
    (x4 : Vec F S256x256 .f32) (x5 : Vec F S256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E
          (cc1__out_kernel i arg2 harg2 arg3 harg3 arg4 harg4 arg5 harg5 arg6 harg6 arg7 harg7 arg8 harg8) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at
    point `t` each input's buffer at its block and the output's at `out1_6` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Run.lean ====
import proofs.«174136_j47605417509124_1_alg».proof.Proof.KB.R0Frame
import proofs.«174136_j47605417509124_1_alg».proof.Proof.KB.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the two passes

@main is the first pass (the per-batch matrix accumulated over the sequence tiles) followed by the second (the result tile
by tile); no host operation stands between them. The buffer contents at each boundary are a fold from the launch memory:
a pass's arrays at what its write-backs leave, every other buffer as entered. -/

/-- Core `c`'s buffers at launch. -/
abbrev W0 : Dev nD → Valuation τ sig (Elt F) := fun c b => (s₀ m ρ).mem ((c : Dev nD), b)
/-- The same read at the TensorCore's references (what the first pass's proof data take). -/
abbrev V0 : (c : Dev nD) → (b : Ref sig .tc) → Buf (Elt F) ((c : Thread nD τ).loc b) := fun c b => W0 m ρ c b
/-- After the first pass: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second pass. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: a pass reads an argument through an input window or does not touch it -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 3).trans (((dat0 (V0 m ρ) c).arrAt_in 3 rfl _).trans (A_eq0 (V0 m ρ) c 3))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 4).trans (((dat0 (V0 m ρ) c).arrAt_in 4 rfl _).trans (A_eq0 (V0 m ρ) c 4))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := (W1_arr m ρ c 2).trans (((dat0 (V0 m ρ) c).arrAt_in 2 rfl _).trans (A_eq0 (V0 m ρ) c 2))
    _ = m ((c : Thread nD τ).loc main_arg4) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := (W2_arr m ρ c 1).trans (((dat1 (V1 m ρ) c).arrAt_in 1 rfl _).trans (A_eq1 (V1 m ρ) c 1))
    _ = W0 m ρ c (Proc.devRef .tc main_arg5) := W1_of_ne m ρ c main_arg5 (by decide)
    _ = m ((c : Thread nD τ).loc main_arg5) := rfl
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := (W2_arr m ρ c 2).trans (((dat1 (V1 m ρ) c).arrAt_in 2 rfl _).trans (A_eq1 (V1 m ρ) c 2))
    _ = W0 m ρ c (Proc.devRef .tc main_arg6) := W1_of_ne m ρ c main_arg6 (by decide)
    _ = m ((c : Thread nD τ).loc main_arg6) := rfl
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := (W2_arr m ρ c 4).trans (((dat1 (V1 m ρ) c).arrAt_in 4 rfl _).trans (A_eq1 (V1 m ρ) c 4))
    _ = W0 m ρ c (Proc.devRef .tc main_arg7) := W1_of_ne m ρ c main_arg7 (by decide)
    _ = m ((c : Thread nD τ).loc main_arg7) := rfl
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := (W2_arr m ρ c 5).trans (((dat1 (V1 m ρ) c).arrAt_in 5 rfl _).trans (A_eq1 (V1 m ρ) c 5))
    _ = W0 m ρ c (Proc.devRef .tc main_arg8) := W1_of_ne m ρ c main_arg8 (by decide)
    _ = m ((c : Thread nD τ).loc main_arg8) := rfl

/-- The intermediate matrix the second pass reads is what the first pass's write-backs left. -/
theorem V1_main_v0 (c : Dev nD) : V1 m ρ c main_v0 = (dat0 (V0 m ρ) c).arrAt 5 cfg0.N := W1_arr m ρ c 5
/-- The second pass finds each argument as launched. -/
theorem V1_main_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_main_arg1 (c : Dev nD) : V1 m ρ c main_arg1 = m ((c : Thread nD τ).loc main_arg1) :=
  (W1_arr m ρ c 3).trans (((dat0 (V0 m ρ) c).arrAt_in 3 rfl _).trans (A_eq0 (V0 m ρ) c 3))
theorem V1_main_arg2 (c : Dev nD) : V1 m ρ c main_arg2 = m ((c : Thread nD τ).loc main_arg2) :=
  (W1_arr m ρ c 4).trans (((dat0 (V0 m ρ) c).arrAt_in 4 rfl _).trans (A_eq0 (V0 m ρ) c 4))
theorem V1_main_arg3 (c : Dev nD) : V1 m ρ c main_arg3 = m ((c : Thread nD τ).loc main_arg3) :=
  (W1_arr m ρ c 1).trans (((dat0 (V0 m ρ) c).arrAt_in 1 rfl _).trans (A_eq0 (V0 m ρ) c 1))
theorem V1_main_arg4 (c : Dev nD) : V1 m ρ c main_arg4 = m ((c : Thread nD τ).loc main_arg4) :=
  (W1_arr m ρ c 2).trans (((dat0 (V0 m ρ) c).arrAt_in 2 rfl _).trans (A_eq0 (V0 m ρ) c 2))
theorem V1_main_arg5 (c : Dev nD) : V1 m ρ c main_arg5 = m ((c : Thread nD τ).loc main_arg5) :=
  W1_of_ne m ρ c main_arg5 (by decide)
theorem V1_main_arg6 (c : Dev nD) : V1 m ρ c main_arg6 = m ((c : Thread nD τ).loc main_arg6) :=
  W1_of_ne m ρ c main_arg6 (by decide)
theorem V1_main_arg7 (c : Dev nD) : V1 m ρ c main_arg7 = m ((c : Thread nD τ).loc main_arg7) :=
  W1_of_ne m ρ c main_arg7 (by decide)
theorem V1_main_arg8 (c : Dev nD) : V1 m ρ c main_arg8 = m ((c : Thread nD τ).loc main_arg8) :=
  W1_of_ne m ρ c main_arg8 (by decide)

/-! ## The proof data family and the thread state -/

abbrev adm : (p : Fin 2) → (pcfgs (F := F) p).Adm := fun p => (cfgs p).toPCfg_adm
/-- Each pass's proof data at its entry contents — a literal match, so that the pinned configuration at a numeral reduces
    to the printed one. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The passes as segments -/

-- a library lemma stated over the pinned configuration unifies with the printed one only when unification may unfold
-- plain definitions in a metavariable's type
set_option backward.isDefEq.respectTransparency.types false in
/-- Pass 0 over the thread state: entered from every unscoped buffer at `W0`, left at `W1`. Its arrays are split
    out of the unscoped buffers and put back at the contents the write-backs leave; the generator register goes into the
    pass's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V0 m ρ) c).Φ 0 from rfl]
    have h := hin0 (V0 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (V0 m ρ) c).Φ (Fin.last cfg0.N) from rfl]
    exact (hout0 (V0 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pass 1 over the thread state: entered from every unscoped buffer at `W1`, left at `W2`. Its arrays are split
    out of the unscoped buffers and put back at the contents the write-backs leave; the generator register goes into the
    pass's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- Every weakly fair execution of @main from `m` with zero counters terminates, nothing faulting, and every final memory
    holds each unscoped buffer at the last boundary's contents `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- The run, read at the result and the nine arguments: the result holds what the second pass's write-backs leave, every
    argument its launch contents. -/
theorem run : θ_run defs (onTc (τ := τ) (main (F := F))) ⟨m, fun _ => 0, ρ⟩ (fun r => ∀ c : Dev nD,
      r.2.mem ((c.tc : Thread nD τ).loc main_v1) = (dat1 (V1 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v1 (by decide))).trans (W2_arr m ρ c 6),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c),
      (h c _ (mem_uc main_arg3 (by decide))).trans (W2_main_arg3 m ρ c),
      (h c _ (mem_uc main_arg4 (by decide))).trans (W2_main_arg4 m ρ c),
      (h c _ (mem_uc main_arg5 (by decide))).trans (W2_main_arg5 m ρ c),
      (h c _ (mem_uc main_arg6 (by decide))).trans (W2_main_arg6 m ρ c),
      (h c _ (mem_uc main_arg7 (by decide))).trans (W2_main_arg7 m ρ c),
      (h c _ (mem_uc main_arg8 (by decide))).trans (W2_main_arg8 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run m ρ)

end Cert.Kernel.Hand

end
-- ==== Proof.KI.R0Runs.lean ====
import proofs.«174136_j47605417509124_1_alg».proof.Proof.Gen.KernelIdeal.Launch
import proofs.«174136_j47605417509124_1_alg».proof.Proof.Gen.KernelIdeal.Skeleton
import proofs.«174136_j47605417509124_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the first call is entered: the parameter its half is stated at
variable (V : (c : Dev nD) → (b : Ref sig .tc) → Buf (Elt F) ((c : Thread nD τ).loc b))

/-! # The first call (the accumulation of Θᵀ·G over the eight row tiles of a batch), at the entry contents `V`

## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the
    block index has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (unfetched, the
    block index has not moved), for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional: the row-tile coordinate is zero (the scalar chain substituted). -/
abbrev cond0_0 (i : grid0.Coords) : Prop := (Scalar.cmpi .ne (Scalar.extui (Scalar.cmpi .eq (BitVec.ofNat 32 (i 1).val) 0#32)) 0#32) = 1#1
/-- It holds at the first tile of every batch — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs, the scratch, the views through which contents are stated -/
abbrev ms0_0 (t : Fin cfg0.N) : Memref sig .tc .vmem S1x512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x256 .f32 := win0_5.stage (cfg0.slots t 5)
abbrev hs0_5 (t : Fin cfg0.N) : (ms0_5 t).IsWhole := hstage0_5 ((cfg0.slots t 5).cast nbuf0_5)
/-- One staging buffer of output window 5, through which its contents are stated (the choice does not matter). -/
abbrev VO0_5 : View sig .tc .vmem S1x256x256 .f32 := (Memref.whole cc0_stg5_0 : Memref sig .tc .vmem S1x256x256 .f32).view
/-- The scratch operand: a whole scoped buffer of the kernel's own, passed beside the windows. -/
abbrev scM0_0 : Memref sig .tc .vmem S256x256 .f32 := Memref.whole cc0_scratch0
/-- The scratch the kernel carries between points, as a view: what it holds is stated through it. -/
abbrev VS0_0 : View sig .tc .vmem S256x256 .f32 := scM0_0.view

/-- The second call's ten staging buffers, each whole at some contents: scoped buffers the first call never touches. -/
def Others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class invariant with the scratch as a memref owned at some contents, the other scoped buffers beside it. -/
theorem PhiA0_eq (c : Dev nD) :
    (Pipeline.ΦA spec0 c : sProp 𝕄)
      = iprop(iprop(iprop(∃ d, owns (c : Thread nD τ) scM0_0 fullShare d) ∗ Others0 (F := F) c) ∗ (∃ r, prngReg c r)) := by
  unfold Pipeline.ΦA; rw [scopedRest0_eq]; unfold Others0; simp only [scM0_0, owns_whole]; try rfl

end Cert.KernelIdeal.Hand

end
-- ==== Proof.KI.R0RunA.lean ====
import proofs.«174136_j47605417509124_1_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref and in the scratch, as pieces (last first), at the first row tile of a batch (the conditional taken: the scratch is zeroed first),
    WITH the proof that on whole staging memrefs — the five inputs' at their contents, the output's at anything, the scratch at anything —
    the body runs to the continuation holding the inputs' as they were and the output's buffer and the scratch with their pieces written. -/
noncomputable def kernelRun0_A (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : cond0_0 i)
    (x0 : Vec F S1x512x256 .f32) (x1 : Vec F S256x256 .f32) (x2 : Vec F S256 .f32) (x3 : Vec F S256x256 .f32) (x4 : Vec F S256 .f32) :
    Σ' (L5 : List (View.Piece (Elt F) S1x256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__m_kernel i arg2 harg2 arg3 harg3 arg4 harg4 arg5 harg5 arg6 harg6 arg7 harg7 arg8 harg8) K } := by
  refine ⟨?_, ?_, fun E K => ?run⟩
  case run =>
    simp only [cc0__m_kernel_eq_skeleton]; unfold cc0__m_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.R0RunB.lean ====
import proofs.«174136_j47605417509124_1_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref and in the scratch, as pieces (last first), at a later row tile of a batch (the conditional not taken: the scratch holds what the tile before left, `xs0`),
    WITH the proof that on whole staging memrefs — the five inputs' at their contents, the output's at anything, the scratch at `xs0` —
    the body runs to the continuation holding the inputs' as they were and the output's buffer and the scratch with their pieces written. -/
noncomputable def kernelRun0_B (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : ¬cond0_0 i)
    (x0 : Vec F S1x512x256 .f32) (x1 : Vec F S256x256 .f32) (x2 : Vec F S256 .f32) (x3 : Vec F S256x256 .f32) (x4 : Vec F S256 .f32) (xs0 : Vec F S256x256 .f32) :
    Σ' (L5 : List (View.Piece (Elt F) S1x256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__m_kernel i arg2 harg2 arg3 harg3 arg4 harg4 arg5 harg5 arg6 harg6 arg7 harg7 arg8 harg8) K } := by
  refine ⟨?_, ?_, fun E K => ?run⟩
  case run =>
    simp only [cc0__m_kernel_eq_skeleton]; unfold cc0__m_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.R0Frame.lean ====
import proofs.«174136_j47605417509124_1_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the first call is entered: the parameter its half is stated at
variable (V : (c : Dev nD) → (b : Ref sig .tc) → Buf (Elt F) ((c : Thread nD τ).loc b))

/-! ## What each case leaves -/

/-- At the first row tile of a batch: the pieces for output window 5 tile its block (one store of the whole block), so they cover it. -/
theorem cover0_A_5 (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : cond0_0 i)
    (x0 : Vec F S1x512x256 .f32) (x1 : Vec F S256x256 .f32) (x2 : Vec F S256 .f32) (x3 : Vec F S256x256 .f32) (x4 : Vec F S256 .f32) (y : S1x256x256.Idx) :
    ∃ pc ∈ (kernelRun0_A c i arg2 harg2 arg3 harg3 arg4 harg4 arg5 harg5 arg6 harg6 arg7 harg7 arg8 harg8 hc0 x0 x1 x2 x3 x4).1, y ∈ pc.1.set :=
  View.cover_of_tiledL (kernelRun0_A c i arg2 harg2 arg3 harg3 arg4 harg4 arg5 harg5 arg6 harg6 arg7 harg7 arg8 harg8 hc0 x0 x1 x2 x3 x4).1 S1x256x256.size (by sl_kernel_rfl) y

/-- At the first row tile of a batch: what the body leaves in output window 5's staging buffer — its pieces read back over junk. -/
def out0_A_5 (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : cond0_0 i)
    (x0 : Vec F S1x512x256 .f32) (x1 : Vec F S256x256 .f32) (x2 : Vec F S256 .f32) (x3 : Vec F S256x256 .f32) (x4 : Vec F S256 .f32) : Vec F S1x256x256 .f32 :=
  VO0_5.read (Elt F) (VO0_5.writes (Elt F) VO0_5.junk (kernelRun0_A c i arg2 harg2 arg3 harg3 arg4 harg4 arg5 harg5 arg6 harg6 arg7 harg7 arg8 harg8 hc0 x0 x1 x2 x3 x4).1)

/-- At the first row tile of a batch: the pieces for the scratch cover it (every store is of the whole buffer). -/
theorem scover0_A_0 (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : cond0_0 i)
    (x0 : Vec F S1x512x256 .f32) (x1 : Vec F S256x256 .f32) (x2 : Vec F S256 .f32) (x3 : Vec F S256x256 .f32) (x4 : Vec F S256 .f32) (y : S256x256.Idx) :
    ∃ pc ∈ (kernelRun0_A c i arg2 harg2 arg3 harg3 arg4 harg4 arg5 harg5 arg6 harg6 arg7 harg7 arg8 harg8 hc0 x0 x1 x2 x3 x4).2.1, y ∈ pc.1.set :=
  View.cover_of_tiledL (kernelRun0_A c i arg2 harg2 arg3 harg3 arg4 harg4 arg5 harg5 arg6 harg6 arg7 harg7 arg8 harg8 hc0 x0 x1 x2 x3 x4).2.1 S256x256.size (by sl_kernel_rfl) y

/-- At the first row tile of a batch: what the body leaves in the scratch — its pieces read back over junk. -/
def sout0_A_0 (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : cond0_0 i)
    (x0 : Vec F S1x512x256 .f32) (x1 : Vec F S256x256 .f32) (x2 : Vec F S256 .f32) (x3 : Vec F S256x256 .f32) (x4 : Vec F S256 .f32) : Vec F S256x256 .f32 :=
  VS0_0.read (Elt F) (VS0_0.writes (Elt F) VS0_0.junk (kernelRun0_A c i arg2 harg2 arg3 harg3 arg4 harg4 arg5 harg5 arg6 harg6 arg7 harg7 arg8 harg8 hc0 x0 x1 x2 x3 x4).2.1)

/-- At a later row tile of a batch: the pieces for output window 5 tile its block (one store of the whole block), so they cover it. -/
theorem cover0_B_5 (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : ¬cond0_0 i)
    (x0 : Vec F S1x512x256 .f32) (x1 : Vec F S256x256 .f32) (x2 : Vec F S256 .f32) (x3 : Vec F S256x256 .f32) (x4 : Vec F S256 .f32) (xs0 : Vec F S256x256 .f32) (y : S1x256x256.Idx) :
    ∃ pc ∈ (kernelRun0_B c i arg2 harg2 arg3 harg3 arg4 harg4 arg5 harg5 arg6 harg6 arg7 harg7 arg8 harg8 hc0 x0 x1 x2 x3 x4 xs0).1, y ∈ pc.1.set :=
  View.cover_of_tiledL (kernelRun0_B c i arg2 harg2 arg3 harg3 arg4 harg4 arg5 harg5 arg6 harg6 arg7 harg7 arg8 harg8 hc0 x0 x1 x2 x3 x4 xs0).1 S1x256x256.size (by sl_kernel_rfl) y

/-- At a later row tile of a batch: what the body leaves in output window 5's staging buffer — its pieces read back over junk. -/
def out0_B_5 (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : ¬cond0_0 i)
    (x0 : Vec F S1x512x256 .f32) (x1 : Vec F S256x256 .f32) (x2 : Vec F S256 .f32) (x3 : Vec F S256x256 .f32) (x4 : Vec F S256 .f32) (xs0 : Vec F S256x256 .f32) : Vec F S1x256x256 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 x3 x4 xs0).1)

/-- At a later row tile of a batch: the pieces for the scratch cover it (every store is of the whole buffer). -/
theorem scover0_B_0 (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : ¬cond0_0 i)
    (x0 : Vec F S1x512x256 .f32) (x1 : Vec F S256x256 .f32) (x2 : Vec F S256 .f32) (x3 : Vec F S256x256 .f32) (x4 : Vec F S256 .f32) (xs0 : Vec F S256x256 .f32) (y : S256x256.Idx) :
    ∃ pc ∈ (kernelRun0_B c i arg2 harg2 arg3 harg3 arg4 harg4 arg5 harg5 arg6 harg6 arg7 harg7 arg8 harg8 hc0 x0 x1 x2 x3 x4 xs0).2.1, y ∈ pc.1.set :=
  View.cover_of_tiledL (kernelRun0_B c i arg2 harg2 arg3 harg3 arg4 harg4 arg5 harg5 arg6 harg6 arg7 harg7 arg8 harg8 hc0 x0 x1 x2 x3 x4 xs0).2.1 S256x256.size (by sl_kernel_rfl) y

/-- At a later row tile of a batch: what the body leaves in the scratch — its pieces read back over junk. -/
def sout0_B_0 (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : ¬cond0_0 i)
    (x0 : Vec F S1x512x256 .f32) (x1 : Vec F S256x256 .f32) (x2 : Vec F S256 .f32) (x3 : Vec F S256x256 .f32) (x4 : Vec F S256 .f32) (xs0 : Vec F S256x256 .f32) : Vec F S256x256 .f32 :=
  VS0_0.read (Elt F) (VS0_0.writes (Elt F) VS0_0.junk (kernelRun0_B c i arg2 harg2 arg3 harg3 arg4 harg4 arg5 harg5 arg6 harg6 arg7 harg7 arg8 harg8 hc0 x0 x1 x2 x3 x4 xs0).2.1)

/-! ## What output window 5's buffer and the scratch hold after each point -/

/-- THE ACCUMULATION. What output window 5's staging buffer and the carried scratch hold after the body at position `n`:
    at the first row tile of a batch (`n % 8 = 0`) the reset case run at the point's input blocks; at a later tile the
    accumulating case run at the point's input blocks over what the point before left in the scratch. -/
def outsAt0 (c : Dev nD) : (n : ℕ) → n < cfg0.N → Vec F S1x256x256 .f32 × Vec F S256x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 8 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- `outsAt0` at the first row tile of a batch: the reset case's contents. -/
theorem outsAt0_A (c : Dev nD) (t : Fin cfg0.N) (h0 : t.val % 8 = 0) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

/-- `outsAt0` at a later row tile: the accumulating case's contents, over what the point before left. -/
theorem outsAt0_B (c : Dev nD) (t : Fin cfg0.N) (h0 : ¬t.val % 8 = 0) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before position `n`: before the first point the class's (every scoped buffer at anything); afterwards
    the scratch at what the point before left in it, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Others0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ Others0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ Others0 (F := F) c) ∗ (∃ r, prngReg c r)) := by
  cases n with
  | zero => exact absurd rfl hz
  | succ n => rfl

/-! ## The pipeline's proof data -/

/-- The proof data of the first call on core `c`: the arrays as the call finds them; after the body at point `t` each
    input's buffer at its block and the output's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).q w = fullShare := rfl
theorem owed0 (c : Dev nD) : ∀ x y, (dat0 V c).owed x y = 0 := fun _ _ => rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 4800000 in
/-- The body at any point: the inputs' memrefs hold their blocks; the closed form of the condition says which case the point
    is in; the invariant hands the body the scratch at what the point before left (at anything before the first point) and
    takes it back at this point's contents; the other scoped buffers and the generator register pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5]
  by_cases h0 : t.val % 8 = 0
  · rw [outsAt0_A V c t h0]
    unfold out0_A_5 sout0_A_0; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk0 V c 0 t) (iblk0 V c 1 t) (iblk0 V c 2 t) (iblk0 V c 3 t) (iblk0 V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _)
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk0 V c 0 t) (iblk0 V c 1 t) (iblk0 V c 2 t) (iblk0 V c 3 t) (iblk0 V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _)
  · rw [outsAt0_B V c t h0]
    unfold out0_B_5 sout0_B_0; (try dsimp only)
    have hz : t.val ≠ 0 := fun e => h0 (by rw [e])
    rw [PhiS_castSucc V c t, PhiS_pos V c _ _ hz]
    iintro ⟨⟨⟨HS0, Hoth⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) (iblk0 V c 0 t) (iblk0 V c 1 t) (iblk0 V c 2 t) (iblk0 V c 3 t) (iblk0 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the scratch's named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 32 := N_0; omega)

end Cert.KernelIdeal.Hand

end
-- ==== Proof.KI.R1Frame.lean ====
import proofs.«174136_j47605417509124_1_alg».proof.Proof.Gen.KernelIdeal.Launch
import proofs.«174136_j47605417509124_1_alg».proof.Proof.Gen.KernelIdeal.Skeleton
import proofs.«174136_j47605417509124_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (custom_call 1, `cc1__out_kernel`), its per-region half at any float model

The body reads six input windows whole, computes one payload from them and stores it over the whole of
output window 6. So what the body leaves in the output's buffer is a closed function `out1_6` of the six
input blocks at the point, each input's buffer holds its block at every point, and the invariant is the
plain one: the scoped rest and the generator register pass through untouched. Everything is stated at a
parameter `V`, the TensorCore's buffer contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block
    index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block
    index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): unfetched, the block
    index has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store are of a whole buffer -/

abbrev r1_0 : Rect S1x512x256 := Rect.unit (s := S1x512x256) ![0, 0, 0] S1x512x256.size inb_S1x512x256_S1x512x256_0_0_0
abbrev r1_1 : Rect S256x256 := Rect.unit (s := S256x256) ![0, 0] S256x256.size inb_S256x256_S256x256_0_0
abbrev r1_2 : Rect S256 := Rect.unit (s := S256) ![0] S256.size inb_S256_S256_0
abbrev r1_3 : Rect S1x256x256 := Rect.unit (s := S1x256x256) ![0, 0, 0] S1x256x256.size inb_S1x256x256_S1x256x256_0_0_0

/-! ## What the body leaves in the output window's buffer -/

/-- Window 6's staging buffer after the body, from the six input windows' blocks: its one store as a piece
    (the payload is the skeleton's `k1_pay1` of the six loads). -/
def out1_6 (x0 : Vec F S1x512x256 .f32) (x1 : Vec F S256x256 .f32) (x2 : Vec F S256 .f32) (x3 : Vec F S1x256x256 .f32)
    (x4 : Vec F S256x256 .f32) (x5 : Vec F S256 .f32) : Vec F S1x512x256 .f32 :=
  View.canon [⟨r1_0, k1_pay1 (View.ld x0 r1_0) (View.ld x1 r1_1) (View.ld x2 r1_2) (View.ld x3 r1_3) (View.ld x4 r1_1) (View.ld x5 r1_2)⟩]

/-- The one store tiles the buffer, so it covers it. -/
theorem cover1_6 (p0 : Vec F S1x512x256 .f32) (y : S1x512x256.Idx) :
    ∃ pc ∈ ([⟨r1_0, p0⟩] : List (View.Piece (Elt F) S1x512x256 .f32)), y ∈ pc.1.set :=
  View.cover_of_tiled [⟨r1_0, p0⟩] S1x512x256.size (by rfl) y

/-! ## The body's triple -/

set_option maxHeartbeats 1000000 in
/-- The kernel body on whole staging memrefs, the inputs' at read contents `xW` and the output's at anything, runs to
    the continuation holding the inputs' as they were and the output's at `out1_6` of the inputs'. The body also
    loads the output's buffer before storing over it; what that load reads is used by nothing. -/
theorem sound_kernel1 (c : Dev nD) (E : Set ℕ) (i : grid1.Coords)
    (arg2 : Memref sig .tc .vmem S1x512x256 .f32) (harg2 : arg2.IsWhole) (arg3 : Memref sig .tc .vmem S256x256 .f32) (harg3 : arg3.IsWhole)
    (arg4 : Memref sig .tc .vmem S256 .f32) (harg4 : arg4.IsWhole) (arg5 : Memref sig .tc .vmem S1x256x256 .f32) (harg5 : arg5.IsWhole)
    (arg6 : Memref sig .tc .vmem S256x256 .f32) (harg6 : arg6.IsWhole) (arg7 : Memref sig .tc .vmem S256 .f32) (harg7 : arg7.IsWhole)
    (arg8 : Memref sig .tc .vmem S1x512x256 .f32) (harg8 : arg8.IsWhole)
    (x0 : Vec F S1x512x256 .f32) (x1 : Vec F S256x256 .f32) (x2 : Vec F S256 .f32) (x3 : Vec F S1x256x256 .f32)
    (x4 : Vec F S256x256 .f32) (x5 : Vec F S256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E
          (cc1__out_kernel i arg2 harg2 arg3 harg3 arg4 harg4 arg5 harg5 arg6 harg6 arg7 harg7 arg8 harg8) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at
    point `t` each input's buffer at its block and the output's at `out1_6` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
import proofs.«174136_j47605417509124_1_alg».proof.Proof.KI.R0Frame
import proofs.«174136_j47605417509124_1_alg».proof.Proof.KI.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the two passes

@main is the first pass (the per-batch matrix accumulated over the sequence tiles) followed by the second (the result tile
by tile); no host operation stands between them. The buffer contents at each boundary are a fold from the launch memory:
a pass's arrays at what its write-backs leave, every other buffer as entered. -/

/-- Core `c`'s buffers at launch. -/
abbrev W0 : Dev nD → Valuation τ sig (Elt F) := fun c b => (s₀ m ρ).mem ((c : Dev nD), b)
/-- The same read at the TensorCore's references (what the first pass's proof data take). -/
abbrev V0 : (c : Dev nD) → (b : Ref sig .tc) → Buf (Elt F) ((c : Thread nD τ).loc b) := fun c b => W0 m ρ c b
/-- After the first pass: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second pass. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: a pass reads an argument through an input window or does not touch it -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 3).trans (((dat0 (V0 m ρ) c).arrAt_in 3 rfl _).trans (A_eq0 (V0 m ρ) c 3))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 4).trans (((dat0 (V0 m ρ) c).arrAt_in 4 rfl _).trans (A_eq0 (V0 m ρ) c 4))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := (W1_arr m ρ c 2).trans (((dat0 (V0 m ρ) c).arrAt_in 2 rfl _).trans (A_eq0 (V0 m ρ) c 2))
    _ = m ((c : Thread nD τ).loc main_arg4) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := (W2_arr m ρ c 1).trans (((dat1 (V1 m ρ) c).arrAt_in 1 rfl _).trans (A_eq1 (V1 m ρ) c 1))
    _ = W0 m ρ c (Proc.devRef .tc main_arg5) := W1_of_ne m ρ c main_arg5 (by decide)
    _ = m ((c : Thread nD τ).loc main_arg5) := rfl
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := (W2_arr m ρ c 2).trans (((dat1 (V1 m ρ) c).arrAt_in 2 rfl _).trans (A_eq1 (V1 m ρ) c 2))
    _ = W0 m ρ c (Proc.devRef .tc main_arg6) := W1_of_ne m ρ c main_arg6 (by decide)
    _ = m ((c : Thread nD τ).loc main_arg6) := rfl
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := (W2_arr m ρ c 4).trans (((dat1 (V1 m ρ) c).arrAt_in 4 rfl _).trans (A_eq1 (V1 m ρ) c 4))
    _ = W0 m ρ c (Proc.devRef .tc main_arg7) := W1_of_ne m ρ c main_arg7 (by decide)
    _ = m ((c : Thread nD τ).loc main_arg7) := rfl
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := (W2_arr m ρ c 5).trans (((dat1 (V1 m ρ) c).arrAt_in 5 rfl _).trans (A_eq1 (V1 m ρ) c 5))
    _ = W0 m ρ c (Proc.devRef .tc main_arg8) := W1_of_ne m ρ c main_arg8 (by decide)
    _ = m ((c : Thread nD τ).loc main_arg8) := rfl

/-- The intermediate matrix the second pass reads is what the first pass's write-backs left. -/
theorem V1_main_v0 (c : Dev nD) : V1 m ρ c main_v0 = (dat0 (V0 m ρ) c).arrAt 5 cfg0.N := W1_arr m ρ c 5
/-- The second pass finds each argument as launched. -/
theorem V1_main_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_main_arg1 (c : Dev nD) : V1 m ρ c main_arg1 = m ((c : Thread nD τ).loc main_arg1) :=
  (W1_arr m ρ c 3).trans (((dat0 (V0 m ρ) c).arrAt_in 3 rfl _).trans (A_eq0 (V0 m ρ) c 3))
theorem V1_main_arg2 (c : Dev nD) : V1 m ρ c main_arg2 = m ((c : Thread nD τ).loc main_arg2) :=
  (W1_arr m ρ c 4).trans (((dat0 (V0 m ρ) c).arrAt_in 4 rfl _).trans (A_eq0 (V0 m ρ) c 4))
theorem V1_main_arg3 (c : Dev nD) : V1 m ρ c main_arg3 = m ((c : Thread nD τ).loc main_arg3) :=
  (W1_arr m ρ c 1).trans (((dat0 (V0 m ρ) c).arrAt_in 1 rfl _).trans (A_eq0 (V0 m ρ) c 1))
theorem V1_main_arg4 (c : Dev nD) : V1 m ρ c main_arg4 = m ((c : Thread nD τ).loc main_arg4) :=
  (W1_arr m ρ c 2).trans (((dat0 (V0 m ρ) c).arrAt_in 2 rfl _).trans (A_eq0 (V0 m ρ) c 2))
theorem V1_main_arg5 (c : Dev nD) : V1 m ρ c main_arg5 = m ((c : Thread nD τ).loc main_arg5) :=
  W1_of_ne m ρ c main_arg5 (by decide)
theorem V1_main_arg6 (c : Dev nD) : V1 m ρ c main_arg6 = m ((c : Thread nD τ).loc main_arg6) :=
  W1_of_ne m ρ c main_arg6 (by decide)
theorem V1_main_arg7 (c : Dev nD) : V1 m ρ c main_arg7 = m ((c : Thread nD τ).loc main_arg7) :=
  W1_of_ne m ρ c main_arg7 (by decide)
theorem V1_main_arg8 (c : Dev nD) : V1 m ρ c main_arg8 = m ((c : Thread nD τ).loc main_arg8) :=
  W1_of_ne m ρ c main_arg8 (by decide)

/-! ## The proof data family and the thread state -/

abbrev adm : (p : Fin 2) → (pcfgs (F := F) p).Adm := fun p => (cfgs p).toPCfg_adm
/-- Each pass's proof data at its entry contents — a literal match, so that the pinned configuration at a numeral reduces
    to the printed one. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The passes as segments -/

-- a library lemma stated over the pinned configuration unifies with the printed one only when unification may unfold
-- plain definitions in a metavariable's type
set_option backward.isDefEq.respectTransparency.types false in
/-- Pass 0 over the thread state: entered from every unscoped buffer at `W0`, left at `W1`. Its arrays are split
    out of the unscoped buffers and put back at the contents the write-backs leave; the generator register goes into the
    pass's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V0 m ρ) c).Φ 0 from rfl]
    have h := hin0 (V0 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (V0 m ρ) c).Φ (Fin.last cfg0.N) from rfl]
    exact (hout0 (V0 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pass 1 over the thread state: entered from every unscoped buffer at `W1`, left at `W2`. Its arrays are split
    out of the unscoped buffers and put back at the contents the write-backs leave; the generator register goes into the
    pass's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- Every weakly fair execution of @main from `m` with zero counters terminates, nothing faulting, and every final memory
    holds each unscoped buffer at the last boundary's contents `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- The run, read at the result and the nine arguments: the result holds what the second pass's write-backs leave, every
    argument its launch contents. -/
theorem run : θ_run defs (onTc (τ := τ) (main (F := F))) ⟨m, fun _ => 0, ρ⟩ (fun r => ∀ c : Dev nD,
      r.2.mem ((c.tc : Thread nD τ).loc main_v1) = (dat1 (V1 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v1 (by decide))).trans (W2_arr m ρ c 6),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c),
      (h c _ (mem_uc main_arg3 (by decide))).trans (W2_main_arg3 m ρ c),
      (h c _ (mem_uc main_arg4 (by decide))).trans (W2_main_arg4 m ρ c),
      (h c _ (mem_uc main_arg5 (by decide))).trans (W2_main_arg5 m ρ c),
      (h c _ (mem_uc main_arg6 (by decide))).trans (W2_main_arg6 m ρ c),
      (h c _ (mem_uc main_arg7 (by decide))).trans (W2_main_arg7 m ρ c),
      (h c _ (mem_uc main_arg8 (by decide))).trans (W2_main_arg8 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run m ρ)

end Cert.KernelIdeal.Hand

end
-- ==== Proof.R0Pieces.lean ====
import proofs.«174136_j47605417509124_1_alg».proof.Proof.KI.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What each case of the first call's body leaves, as the payloads of the values it read

At the first row tile of a batch the scratch is zeroed and then receives the tile's product added to that zero; at a
later tile it receives the product added to what it held. Output window 5 receives, at every point, a copy of the
scratch as just updated. -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole buffer after stores the last of which was of the whole buffer reads that store's payload. -/
theorem readCov_cons_whole {S : Shape} {e : EltTy} {Val : EltTy → Type} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- First tile: the scratch ends at the tile's product added to the zero just stored. -/
theorem soutA_eq (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : cond0_0 i)
    (x0 : Vec F S1x512x256 .f32) (x1 : Vec F S256x256 .f32) (x2 : Vec F S256 .f32) (x3 : Vec F S256x256 .f32) (x4 : Vec F S256 .f32) :
    sout0_A_0 c i arg2 harg2 arg3 harg3 arg4 harg4 arg5 harg5 arg6 harg6 arg7 harg7 arg8 harg8 hc0 x0 x1 x2 x3 x4 = k0_pay2 x0 x1 x3 x2 x4 (k0_pay1 (F := F)) := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  try sl_unfold_words
  rw [View.canon_cons_unit_zero hz2, View.readCov_unit_zero (S := S256x256) _ hz2]
  simp only [View.readAt_eq_ld, harg2.read_unread, harg3.read_unread, harg4.read_unread, harg5.read_unread, harg6.read_unread, harg8.read_unread, View.ld_unit_zero (S := S1x512x256) hz3, View.ld_unit_zero (S := S256x256) hz2, View.ld_unit_zero (S := S256) hz1]

/-- First tile: the output's buffer ends at a copy of the scratch as just updated. -/
theorem outA_eq (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : cond0_0 i)
    (x0 : Vec F S1x512x256 .f32) (x1 : Vec F S256x256 .f32) (x2 : Vec F S256 .f32) (x3 : Vec F S256x256 .f32) (x4 : Vec F S256 .f32) :
    out0_A_5 c i arg2 harg2 arg3 harg3 arg4 harg4 arg5 harg5 arg6 harg6 arg7 harg7 arg8 harg8 hc0 x0 x1 x2 x3 x4 = k0_pay3 (k0_pay2 x0 x1 x3 x2 x4 (k0_pay1 (F := F))) := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  try sl_unfold_words
  rw [View.canon_unit_zero hz3, readCov_cons_whole _ hz2, View.readCov_unit_zero (S := S256x256) _ hz2]
  simp only [View.readAt_eq_ld, harg2.read_unread, harg3.read_unread, harg4.read_unread, harg5.read_unread, harg6.read_unread, harg8.read_unread, View.ld_unit_zero (S := S1x512x256) hz3, View.ld_unit_zero (S := S256x256) hz2, View.ld_unit_zero (S := S256) hz1]

/-- Later tile: the scratch ends at the tile's product added to what it held. -/
theorem soutB_eq (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : ¬cond0_0 i)
    (x0 : Vec F S1x512x256 .f32) (x1 : Vec F S256x256 .f32) (x2 : Vec F S256 .f32) (x3 : Vec F S256x256 .f32) (x4 : Vec F S256 .f32) (xs0 : Vec F S256x256 .f32) :
    sout0_B_0 c i arg2 harg2 arg3 harg3 arg4 harg4 arg5 harg5 arg6 harg6 arg7 harg7 arg8 harg8 hc0 x0 x1 x2 x3 x4 xs0 = k0_pay2 x0 x1 x3 x2 x4 xs0 := by
  unfold sout0_B_0
  rw [View.read_writes_eq_canon _ _ _ (scover0_B_0 c i arg2 harg2 arg3 harg3 arg4 harg4 arg5 harg5 arg6 harg6 arg7 harg7 arg8 harg8 hc0 x0 x1 x2 x3 x4 xs0)]
  unfold kernelRun0_B
  dsimp only
  try sl_unfold_words
  rw [View.canon_unit_zero hz2]
  simp only [View.readAt_eq_ld, harg2.read_unread, harg3.read_unread, harg4.read_unread, harg5.read_unread, harg6.read_unread, harg8.read_unread, View.ld_unit_zero (S := S1x512x256) hz3, View.ld_unit_zero (S := S256x256) hz2, View.ld_unit_zero (S := S256) hz1]

/-- Later tile: the output's buffer ends at a copy of the scratch as just updated. -/
theorem outB_eq (c : Dev nD) (i : grid0.Coords) (arg2 : Memref sig .tc .vmem S1x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S256x256 .f32) (harg8 : arg8.IsWhole) (hc0 : ¬cond0_0 i)
    (x0 : Vec F S1x512x256 .f32) (x1 : Vec F S256x256 .f32) (x2 : Vec F S256 .f32) (x3 : Vec F S256x256 .f32) (x4 : Vec F S256 .f32) (xs0 : Vec F S256x256 .f32) :
    out0_B_5 c i arg2 harg2 arg3 harg3 arg4 harg4 arg5 harg5 arg6 harg6 arg7 harg7 arg8 harg8 hc0 x0 x1 x2 x3 x4 xs0 = k0_pay3 (k0_pay2 x0 x1 x3 x2 x4 xs0) := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  try sl_unfold_words
  rw [View.canon_unit_zero hz3, View.readCov_unit_zero (S := S256x256) _ hz2]
  simp only [View.readAt_eq_ld, harg2.read_unread, harg3.read_unread, harg4.read_unread, harg5.read_unread, harg6.read_unread, harg8.read_unread, View.ld_unit_zero (S := S1x512x256) hz3, View.ld_unit_zero (S := S256x256) hz2, View.ld_unit_zero (S := S256) hz1]

end Cert.KernelIdeal.Hand

end
-- ==== Proof.Pay0.lean ====
/-
  The first pass's three stored values, read at an index (at the ideal instance).

  The body of the first pass, at tile k of batch b, with X the [512, 256] block of x and M the [256, 256] scratch:
    θ_X(r, d) = (∑ c, X(r, c) · θ_w(d, c)) + θ_b(d),   g_X(r, e) = (∑ c, X(r, c) · g_w(e, c)) + g_b(e)
    M(d, e)  ←  M(d, e) + ∑ r < 512, θ_X(r, d) · g_X(r, e)
  (each product of matrices a sum over the one contracted axis; the narrowing to bf16 before each product is the
  identity at the ideal instance); the scratch is reset to the zero word on a batch's first tile, and its contents are
  copied to the [1, 256, 256] output block.
-/
import proofs.«174136_j47605417509124_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.ValueIdx

/-! ## The two products of matrices, as sums over the contracted axis -/

theorem rows_lhs0 (i : S512x256.Idx) (q : dot_S512x256_S256x256_S512x256_1_1_0_0_n_n.contr.Idx) :
    (dot_S512x256_S256x256_S512x256_1_1_0_0_n_n.lhsIdx i q 0).val = (i 0).val := by
  unfold DotDims.lhsIdx
  rw [dif_neg (show ¬(0 : Fin S512x256.rank) ∈ dot_S512x256_S256x256_S512x256_1_1_0_0_n_n.lhsBatch by decide), dif_pos (show (0 : Fin S512x256.rank) ∈ dot_S512x256_S256x256_S512x256_1_1_0_0_n_n.lhsNonContracting by decide)]
  rfl
theorem rows_rhs0 (i : S512x256.Idx) (q : dot_S512x256_S256x256_S512x256_1_1_0_0_n_n.contr.Idx) :
    (dot_S512x256_S256x256_S512x256_1_1_0_0_n_n.rhsIdx i q 0).val = (i 1).val := by
  unfold DotDims.rhsIdx
  rw [dif_neg (show ¬(0 : Fin S256x256.rank) ∈ dot_S512x256_S256x256_S512x256_1_1_0_0_n_n.rhsBatch by decide), dif_pos (show (0 : Fin S256x256.rank) ∈ dot_S512x256_S256x256_S512x256_1_1_0_0_n_n.rhsNonContracting by decide)]
  rfl

/-- A [512, 256] by [256, 256] product contracting the second axis of both, into the zero accumulator:
    `(r, d) ↦ ∑ c, L(r, c) · R(d, c)`. -/
theorem mm_rows_apply {φ₁ φ₂ : FTy} (L : FVec Ideal S512x256 φ₁) (R : FVec Ideal S256x256 φ₂) (r : Fin 512) (d : Fin 256) :
    matmul (F := Ideal) dot_S512x256_S256x256_S512x256_1_1_0_0_n_n none L R (constant (F := Ideal) S512x256 .f32 0x00000000#32) (ix2 r d)
      = ∑ c : Fin 256, L (ix2 r c) * R (ix2 d c) := by
  simp only [matmul]
  rw [Ideal.matmul_constant_zero_apply, ← Equiv.sum_comp (contrEquiv1 dot_S512x256_S256x256_S512x256_1_1_0_0_n_n 256 rfl rfl).symm]
  refine Finset.sum_congr rfl fun c _ => ?_
  have hk := contrEquiv1_symm_val dot_S512x256_S256x256_S512x256_1_1_0_0_n_n 256 rfl rfl c
  have el : dot_S512x256_S256x256_S512x256_1_1_0_0_n_n.lhsIdx (ix2 r d) ((contrEquiv1 dot_S512x256_S256x256_S512x256_1_1_0_0_n_n 256 rfl rfl).symm c) = ix2 r c := funext fun a => Fin.ext (by
    match a with
    | ⟨0, _⟩ => exact rows_lhs0 _ _
    | ⟨1, _⟩ => exact (dot_S512x256_S256x256_S512x256_1_1_0_0_n_n.lhsIdx_val_of_single rfl _ _).trans hk)
  have er : dot_S512x256_S256x256_S512x256_1_1_0_0_n_n.rhsIdx (ix2 r d) ((contrEquiv1 dot_S512x256_S256x256_S512x256_1_1_0_0_n_n 256 rfl rfl).symm c) = ix2 d c := funext fun a => Fin.ext (by
    match a with
    | ⟨0, _⟩ => exact rows_rhs0 _ _
    | ⟨1, _⟩ => exact (dot_S512x256_S256x256_S512x256_1_1_0_0_n_n.rhsIdx_val_of_single rfl _ _).trans hk)
  rw [el, er]

theorem cols_lhs1 (i : S256x256.Idx) (q : dot_S512x256_S512x256_S256x256_0_0_1_1_n_n.contr.Idx) :
    (dot_S512x256_S512x256_S256x256_0_0_1_1_n_n.lhsIdx i q 1).val = (i 0).val := by
  unfold DotDims.lhsIdx
  rw [dif_neg (show ¬(1 : Fin S512x256.rank) ∈ dot_S512x256_S512x256_S256x256_0_0_1_1_n_n.lhsBatch by decide), dif_pos (show (1 : Fin S512x256.rank) ∈ dot_S512x256_S512x256_S256x256_0_0_1_1_n_n.lhsNonContracting by decide)]
  rfl
theorem cols_rhs1 (i : S256x256.Idx) (q : dot_S512x256_S512x256_S256x256_0_0_1_1_n_n.contr.Idx) :
    (dot_S512x256_S512x256_S256x256_0_0_1_1_n_n.rhsIdx i q 1).val = (i 1).val := by
  unfold DotDims.rhsIdx
  rw [dif_neg (show ¬(1 : Fin S512x256.rank) ∈ dot_S512x256_S512x256_S256x256_0_0_1_1_n_n.rhsBatch by decide), dif_pos (show (1 : Fin S512x256.rank) ∈ dot_S512x256_S512x256_S256x256_0_0_1_1_n_n.rhsNonContracting by decide)]
  rfl

/-- A [512, 256] by [512, 256] product contracting the first axis of both, into the zero accumulator:
    `(d, e) ↦ ∑ r, L(r, d) · R(r, e)`. -/
theorem mm_cols_apply {φ₁ φ₂ : FTy} (L : FVec Ideal S512x256 φ₁) (R : FVec Ideal S512x256 φ₂) (d e : Fin 256) :
    matmul (F := Ideal) dot_S512x256_S512x256_S256x256_0_0_1_1_n_n none L R (constant (F := Ideal) S256x256 .f32 0x00000000#32) (ix2 d e)
      = ∑ r : Fin 512, L (ix2 r d) * R (ix2 r e) := by
  simp only [matmul]
  rw [Ideal.matmul_constant_zero_apply, ← Equiv.sum_comp (contrEquiv1 dot_S512x256_S512x256_S256x256_0_0_1_1_n_n 512 rfl rfl).symm]
  refine Finset.sum_congr rfl fun r _ => ?_
  have hk := contrEquiv1_symm_val dot_S512x256_S512x256_S256x256_0_0_1_1_n_n 512 rfl rfl r
  have el : dot_S512x256_S512x256_S256x256_0_0_1_1_n_n.lhsIdx (ix2 d e) ((contrEquiv1 dot_S512x256_S512x256_S256x256_0_0_1_1_n_n 512 rfl rfl).symm r) = ix2 r d := funext fun a => Fin.ext (by
    match a with
    | ⟨0, _⟩ => exact (dot_S512x256_S512x256_S256x256_0_0_1_1_n_n.lhsIdx_val_of_single rfl _ _).trans hk
    | ⟨1, _⟩ => exact cols_lhs1 _ _)
  have er : dot_S512x256_S512x256_S256x256_0_0_1_1_n_n.rhsIdx (ix2 d e) ((contrEquiv1 dot_S512x256_S512x256_S256x256_0_0_1_1_n_n 512 rfl rfl).symm r) = ix2 r e := funext fun a => Fin.ext (by
    match a with
    | ⟨0, _⟩ => exact (dot_S512x256_S512x256_S256x256_0_0_1_1_n_n.rhsIdx_val_of_single rfl _ _).trans hk
    | ⟨1, _⟩ => exact cols_rhs1 _ _)
  rw [el, er]

/-! ## A linear layer of the block -/

/-- The block `X` (a [1, 512, 256] value with its unit axis dropped) against a weight, plus the bias row broadcast
    down the 512 rows: at `(r, d)`, `(∑ c, X(0, r, c) · w(d, c)) + bias(d)`. -/
theorem layer_apply (v3 : Vec Ideal S1x512x256 .f32) (w : Vec Ideal S256x256 .f32) (bias : Vec Ideal S256 .f32) (r : Fin 512) (d : Fin 256) :
    addf (F := Ideal) (matmul (F := Ideal) dot_S512x256_S256x256_S512x256_1_1_0_0_n_n none
          (truncf (F := Ideal) .bf16 (shapeCast S512x256 v3 Facts₀.shapeCasts_S1x512x256_S512x256) Facts₀.bitsLt_bf16_f32)
          (truncf (F := Ideal) .bf16 w Facts₀.bitsLt_bf16_f32) (constant (F := Ideal) S512x256 .f32 0x00000000#32))
        (broadcastTo S512x256 (shapeCast S1x256 bias Facts₀.shapeCasts_S256_S1x256) Facts₀.broadcasts_S1x256_S512x256) (ix2 r d)
      = (∑ c : Fin 256, v3 (ix3 0 r c) * w (ix2 d c)) + bias (ix1 d) := by
  rw [addf_apply, mm_rows_apply, broadcastTo_1b_ab_apply, shapeCast_a_1a_apply]
  refine congrArg (· + bias (ix1 d)) (Finset.sum_congr rfl fun c _ => ?_)
  rw [truncf_apply, truncf_apply, shapeCast_1ab_ab_apply]

/-! ## The three stored values -/

/-- The reset value: the zero word everywhere, which denotes 0. -/
theorem pay1_apply (j : S256x256.Idx) : k0_pay1 (F := Ideal) j = 0 := by
  unfold k0_pay1
  rw [shapeCast_self]
  exact Ideal.ofBits_zero_f32

/-- The accumulation: the scratch at `(d, e)` plus the sum over the tile's 512 rows of θ_X(r, d) · g_X(r, e). -/
theorem pay2_apply (v3 : Vec Ideal S1x512x256 .f32) (v6 v8 : Vec Ideal S256x256 .f32) (v11 v16 : Vec Ideal S256 .f32)
    (v23 : Vec Ideal S256x256 .f32) (d e : Fin 256) :
    k0_pay2 (F := Ideal) v3 v6 v8 v11 v16 v23 (ix2 d e)
      = v23 (ix2 d e) + ∑ r : Fin 512, ((∑ c : Fin 256, v3 (ix3 0 r c) * v6 (ix2 d c)) + v11 (ix1 d))
          * ((∑ c : Fin 256, v3 (ix3 0 r c) * v8 (ix2 e c)) + v16 (ix1 e)) := by
  unfold k0_pay2
  rw [shapeCast_self, addf_apply, mm_cols_apply]
  refine congrArg (v23 (ix2 d e) + ·) (Finset.sum_congr rfl fun r _ => ?_)
  rw [truncf_apply, truncf_apply, layer_apply, layer_apply]

/-- The copy to the output block: the [256, 256] scratch contents with a unit axis in front. -/
theorem pay3_apply (v28 : Vec Ideal S256x256 .f32) (d e : Fin 256) :
    k0_pay3 (F := Ideal) v28 (ix3 0 d e) = v28 (ix2 d e) := by
  unfold k0_pay3
  exact shapeCast_ab_1ab_apply v28 _ 0 d e

end Cert.KernelIdeal.HandValue

end
-- ==== Proof.Spec.lean ====
/-
  The result as one function of the nine argument arrays, over the extended reals.

  With x : [4, 4096, 256], every weight w : [256, 256] (rows indexed by the OUTPUT feature), every bias : [256]:
    lin x w bias (b, n, d) = (∑ c, x(b,n,c) · w(d,c)) + bias(d)                        -- a linear layer
    M(b, d, e)   = ∑ k < 8, ∑ r < 512, θ(b, 512k + r, d) · g(b, 512k + r, e)           -- θᵀ g, summed tile by tile
    y(b, n, e)   = (∑ d, φ(b, n, d) · M(b, d, e)) · 2⁻¹²
    out(b, n, f) = ((∑ e, y(b, n, e) · W(f, e)) + W_b(f)) + x(b, n, f)
  where θ, g, φ are the three linear layers of x. `outAt` takes the [4, 256, 256] array M as an argument, because the
  second pass reads it from memory; `Marr` is the array the first pass leaves.
-/
import Idealize.ShloMosaic.PureOps.Ideal
import Idealize.ShloMosaic.Lib.ValueIdx

noncomputable section

namespace Cert.Spec

open Idealize.ShloMosaic Idealize.ShloMosaic.ValueIdx

abbrev SX : Shape := ⟨3, ![4, 4096, 256]⟩
abbrev SW : Shape := ⟨2, ![256, 256]⟩
abbrev SB : Shape := ⟨1, ![256]⟩
abbrev SM : Shape := ⟨3, ![4, 256, 256]⟩

/-- Row `512 k + r` of the sequence axis: tile `k` of 8, row `r` of the tile. -/
def row (k : Fin 8) (r : Fin 512) : Fin 4096 := ⟨512 * k.val + r.val, by have := k.isLt; have := r.isLt; omega⟩

/-- A linear layer of `x` at batch `b`, row `n`, output feature `d`: `x[b, n, :] · w[d, :] + bias[d]`. -/
def lin (x : SX.Idx → EReal) (w : SW.Idx → EReal) (bias : SB.Idx → EReal) (b : Fin 4) (n : Fin 4096) (d : Fin 256) : EReal :=
  (∑ c : Fin 256, x (ix3 b n c) * w (ix2 d c)) + bias (ix1 d)

/-- `θᵀ g` of batch `b` at `(d, e)`, the sequence axis summed tile by tile. -/
def Mat (x : SX.Idx → EReal) (tw : SW.Idx → EReal) (tb : SB.Idx → EReal) (gw : SW.Idx → EReal) (gb : SB.Idx → EReal)
    (b : Fin 4) (d e : Fin 256) : EReal :=
  ∑ k : Fin 8, ∑ r : Fin 512, lin x tw tb b (row k r) d * lin x gw gb b (row k r) e

/-- The [4, 256, 256] array the first pass leaves. -/
def Marr (x : SX.Idx → EReal) (tw : SW.Idx → EReal) (tb : SB.Idx → EReal) (gw : SW.Idx → EReal) (gb : SB.Idx → EReal) :
    SM.Idx → EReal := fun j => Mat x tw tb gw gb (j 0) (j 1) (j 2)

/-- The scale `2⁻¹²` as the kernel spells it (an f32 word; never evaluated on the kernel's side). -/
abbrev invN : EReal := Ideal.ofBits .f32 0x39800000#32

/-- The result at `(b, n, f)` from `x`, the φ layer, the array `Mv` read from memory, and the output layer. -/
def outAt (x : SX.Idx → EReal) (pw : SW.Idx → EReal) (pb : SB.Idx → EReal) (Mv : SM.Idx → EReal)
    (ww : SW.Idx → EReal) (wb : SB.Idx → EReal) (b : Fin 4) (n : Fin 4096) (f : Fin 256) : EReal :=
  ((∑ e : Fin 256, ((∑ d : Fin 256, lin x pw pb b n d * Mv (ix3 b d e)) * invN) * ww (ix2 f e)) + wb (ix1 f)) + x (ix3 b n f)

/-- The whole [4, 4096, 256] result. -/
def out (x : SX.Idx → EReal) (pw : SW.Idx → EReal) (pb : SB.Idx → EReal) (Mv : SM.Idx → EReal)
    (ww : SW.Idx → EReal) (wb : SB.Idx → EReal) : SX.Idx → EReal := fun j => outAt x pw pb Mv ww wb (j 0) (j 1) (j 2)

/-- Every entry of an array is a real number. -/
def Finite {S : Shape} (a : S.Idx → EReal) : Prop := ∀ i, ∃ r : ℝ, a i = (r : EReal)

end Cert.Spec

end
-- ==== Proof.R0Blocks.lean ====
import proofs.«174136_j47605417509124_1_alg».proof.Proof.KI.R0Frame
import proofs.«174136_j47605417509124_1_alg».proof.Proof.R0Pieces
import proofs.«174136_j47605417509124_1_alg».proof.Proof.Pay0
import proofs.«174136_j47605417509124_1_alg».proof.Proof.Spec
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

/-! # The array the first call leaves: Θᵀ·G of every batch, summed tile by tile

At the extended reals. A batch `b` is the eight consecutive points `8b … 8b + 7`; point `8b + k` reads rows
`512k … 512k + 511` of batch `b` of `x` and the four weight arrays whole, adds the tile's product onto the scratch (which the
first tile of the batch starts from zero), and copies the scratch to the output's block `b`, written back after the last tile. -/

variable (V : (c : Dev nD) → (b : Ref sig .tc) → Buf (Elt Ideal) ((c : Thread nD τ).loc b))

/-! ## Where each window's block sits, decided over the grid -/

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 1) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 3) = t.val / 8 ∧ win0_5.index t (1 : Fin 3) = 0 ∧ win0_5.index t (2 : Fin 3) = 0 :=
  (by decide +kernel : ∀ t : Fin grid0.N, _)

/-! ## The input blocks as parts of the argument arrays -/

/-- Point `8b + k`'s block of `x` is rows `512k …` of batch `b`. -/
theorem blk0_apply (c : Dev nD) (t : Fin cfg0.N) (b : Fin 4) (k : Fin 8) (ht : t.val = 8 * b.val + k.val) (r : Fin 512) (c' : Fin 256) :
    (iblk0 V c 0 t : Vec Ideal S1x512x256 .f32) (ix3 0 r c') = (V c main_arg0 : S4x4096x256.Idx → EReal) (ix3 b (Cert.Spec.row k r) c') := by
  obtain ⟨e0, e1, e2⟩ := idx0 t
  unfold iblk0
  rw [View.read_apply]
  show V c main_arg0 _ = V c main_arg0 _
  congr 1
  funext a
  apply Fin.ext
  match a with
  | ⟨0, _⟩ => show win0_0.index t (0 : Fin 3) * 1 + 1 * (0 : Fin 1).val = b.val; rw [e0]; have := k.isLt; simp only [Fin.val_zero]; omega
  | ⟨1, _⟩ => show win0_0.index t (1 : Fin 3) * 512 + 1 * r.val = 512 * k.val + r.val; rw [e1]; have := k.isLt; omega
  | ⟨2, _⟩ => show win0_0.index t (2 : Fin 3) * 256 + 1 * c'.val = c'.val; rw [e2]; omega

/-- Every point's block of a weight matrix is the matrix. -/
theorem blk1_eq (c : Dev nD) (t : Fin cfg0.N) : (iblk0 V c 1 t : Vec Ideal S256x256 .f32) = (V c main_arg3 : S256x256.Idx → EReal) := by
  obtain ⟨e0, e1⟩ := idx1 t
  funext j
  unfold iblk0
  rw [View.read_apply]
  show V c main_arg3 _ = V c main_arg3 _
  congr 1
  funext a
  apply Fin.ext
  match a with
  | ⟨0, _⟩ => show win0_1.index t (0 : Fin 2) * 256 + 1 * (j 0).val = (j 0).val; rw [e0]; omega
  | ⟨1, _⟩ => show win0_1.index t (1 : Fin 2) * 256 + 1 * (j 1).val = (j 1).val; rw [e1]; omega
theorem blk3_eq (c : Dev nD) (t : Fin cfg0.N) : (iblk0 V c 3 t : Vec Ideal S256x256 .f32) = (V c main_arg1 : S256x256.Idx → EReal) := by
  obtain ⟨e0, e1⟩ := idx3 t
  funext j
  unfold iblk0
  rw [View.read_apply]
  show V c main_arg1 _ = V c main_arg1 _
  congr 1
  funext a
  apply Fin.ext
  match a with
  | ⟨0, _⟩ => show win0_3.index t (0 : Fin 2) * 256 + 1 * (j 0).val = (j 0).val; rw [e0]; omega
  | ⟨1, _⟩ => show win0_3.index t (1 : Fin 2) * 256 + 1 * (j 1).val = (j 1).val; rw [e1]; omega
/-- Every point's block of a bias vector is the vector. -/
theorem blk2_eq (c : Dev nD) (t : Fin cfg0.N) : (iblk0 V c 2 t : Vec Ideal S256 .f32) = (V c main_arg4 : S256.Idx → EReal) := by
  have e0 := idx2 t
  funext j
  unfold iblk0
  rw [View.read_apply]
  show V c main_arg4 _ = V c main_arg4 _
  congr 1
  funext a
  apply Fin.ext
  match a with
  | ⟨0, _⟩ => show win0_2.index t (0 : Fin 1) * 256 + 1 * (j 0).val = (j 0).val; rw [e0]; omega
theorem blk4_eq (c : Dev nD) (t : Fin cfg0.N) : (iblk0 V c 4 t : Vec Ideal S256 .f32) = (V c main_arg2 : S256.Idx → EReal) := by
  have e0 := idx4 t
  funext j
  unfold iblk0
  rw [View.read_apply]
  show V c main_arg2 _ = V c main_arg2 _
  congr 1
  funext a
  apply Fin.ext
  match a with
  | ⟨0, _⟩ => show win0_4.index t (0 : Fin 1) * 256 + 1 * (j 0).val = (j 0).val; rw [e0]; omega

end Cert.KernelIdeal.HandValue

end
-- ==== Proof.R0Value.lean ====
import proofs.«174136_j47605417509124_1_alg».proof.Proof.R0Blocks

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## One row tile's product, and the scratch point by point -/

/-- The product of one row tile at `(d, e)`: over the tile's 512 rows, the θ layer's feature `d` times the g layer's feature `e`. -/
def tile (xb : Vec Ideal S1x512x256 .f32) (tw : Vec Ideal S256x256 .f32) (tb : Vec Ideal S256 .f32) (gw : Vec Ideal S256x256 .f32) (gb : Vec Ideal S256 .f32)
    (d e : Fin 256) : EReal :=
  ∑ r : Fin 512, ((∑ c : Fin 256, xb (ix3 0 r c) * tw (ix2 d c)) + tb (ix1 d)) * ((∑ c : Fin 256, xb (ix3 0 r c) * gw (ix2 e c)) + gb (ix1 e))

/-- The tile product of point `t`, from its input blocks. -/
def tileAt (c : Dev nD) (t : Fin cfg0.N) (d e : Fin 256) : EReal :=
  tile (iblk0 V c 0 t) (iblk0 V c 1 t) (iblk0 V c 2 t) (iblk0 V c 3 t) (iblk0 V c 4 t) d e

/-- At the first tile of a batch the scratch ends at the tile's product (added to the zero just stored). -/
theorem scr_A (c : Dev nD) (t : Fin cfg0.N) (h0 : t.val % 8 = 0) (d e : Fin 256) :
    (outsAt0 V c t.val t.isLt).2 (ix2 d e) = tileAt V c t d e := by
  rw [outsAt0_A V c t h0]
  dsimp only
  refine (congrFun (soutA_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t) (iblk0 V c 2 t) (iblk0 V c 3 t) (iblk0 V c 4 t)) (ix2 d e)).trans ?_
  refine (pay2_apply _ _ _ _ _ _ d e).trans ?_
  rw [pay1_apply, zero_add]
  rfl

/-- At a later tile the scratch ends at what the point before left plus the tile's product. -/
theorem scr_B (c : Dev nD) (t : Fin cfg0.N) (h0 : ¬t.val % 8 = 0) (d e : Fin 256) :
    (outsAt0 V c t.val t.isLt).2 (ix2 d e)
      = (outsAt0 V c (t.val - 1) (Nat.lt_of_le_of_lt (Nat.sub_le _ _) t.isLt)).2 (ix2 d e) + tileAt V c t d e := by
  rw [outsAt0_B V c t h0]
  dsimp only
  refine (congrFun (soutB_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) (ix2 d e)).trans ?_
  exact pay2_apply _ _ _ _ _ _ d e

/-- At every point the output's buffer ends at a copy of the scratch. -/
theorem out_eq_scr (c : Dev nD) (t : Fin cfg0.N) (d e : Fin 256) :
    (outsAt0 V c t.val t.isLt).1 (ix3 0 d e) = (outsAt0 V c t.val t.isLt).2 (ix2 d e) := by
  by_cases h0 : t.val % 8 = 0
  · rw [outsAt0_A V c t h0]
    dsimp only
    rw [outA_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t) (iblk0 V c 2 t) (iblk0 V c 3 t) (iblk0 V c 4 t), soutA_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t) (iblk0 V c 2 t) (iblk0 V c 3 t) (iblk0 V c 4 t)]
    exact pay3_apply _ d e
  · rw [outsAt0_B V c t h0]
    dsimp only
    rw [outB_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, soutB_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2]
    exact pay3_apply _ d e

/-- `outsAt0` depends on the position only. -/
theorem outsAt0_idx (c : Dev nD) {n n' : ℕ} (e : n = n') (h : n < cfg0.N) (h' : n' < cfg0.N) : outsAt0 V c n h = outsAt0 V c n' h' := by
  subst e; rfl

/-- The tile product at a position (zero past the grid). -/
def tileN (c : Dev nD) (n : ℕ) (d e : Fin 256) : EReal := if h : n < cfg0.N then tileAt V c ⟨n, h⟩ d e else 0

/-- THE ACCUMULATION within a batch: after tile `j` of the batch starting at position `s` the scratch holds the sum of the
    products of tiles `0 … j`. -/
theorem acc (c : Dev nD) (s : ℕ) (hs : s % 8 = 0) (d e : Fin 256) : ∀ (j : ℕ) (hj : j < 8) (h : s + j < cfg0.N),
    (outsAt0 V c (s + j) h).2 (ix2 d e) = ∑ k ∈ Finset.range (j + 1), tileN V c (s + k) d e
  | 0, _, h => by
    rw [Finset.sum_range_one]
    unfold tileN
    rw [dif_pos h]
    exact scr_A V c ⟨s + 0, h⟩ (by show (s + 0) % 8 = 0; simpa using hs) d e
  | j + 1, hj, h => by
    have hN : cfg0.N = 32 := N_0
    have h' : s + j < cfg0.N := by omega
    rw [Finset.sum_range_succ, ← acc c s hs d e j (by omega) h']
    unfold tileN
    rw [dif_pos h]
    have hB := scr_B V c ⟨s + (j + 1), h⟩ (by show ¬(s + (j + 1)) % 8 = 0; omega) d e
    rw [outsAt0_idx V c (show (⟨s + (j + 1), h⟩ : Fin cfg0.N).val - 1 = s + j from by show s + (j + 1) - 1 = s + j; omega) _ h'] at hB
    exact hB

/-! ## A tile's product in the argument arrays; a whole batch -/

/-- Point `8b + k`'s tile product is the specification's summand for tile `k` of batch `b`. -/
theorem tile_spec (c : Dev nD) (t : Fin cfg0.N) (b : Fin 4) (k : Fin 8) (ht : t.val = 8 * b.val + k.val) (d e : Fin 256) :
    tileAt V c t d e = ∑ r : Fin 512, Cert.Spec.lin (V c main_arg0) (V c main_arg3) (V c main_arg4) b (Cert.Spec.row k r) d
        * Cert.Spec.lin (V c main_arg0) (V c main_arg1) (V c main_arg2) b (Cert.Spec.row k r) e := by
  unfold tileAt tile Cert.Spec.lin
  rw [blk1_eq V c t, blk2_eq V c t, blk3_eq V c t, blk4_eq V c t]
  refine Finset.sum_congr rfl fun r _ => ?_
  have hx : ∀ c' : Fin 256, (iblk0 V c 0 t : Vec Ideal S1x512x256 .f32) (ix3 0 r c') = (V c main_arg0 : S4x4096x256.Idx → EReal) (ix3 b (Cert.Spec.row k r) c') :=
    fun c' => blk0_apply V c t b k ht r c'
  simp only [hx]

/-- After the last tile of batch `b` the scratch holds the specification's `Θᵀ·G` of the batch. -/
theorem acc_full (c : Dev nD) (t : Fin cfg0.N) (b : Fin 4) (hb : t.val = 8 * b.val + 7) (d e : Fin 256) :
    (outsAt0 V c t.val t.isLt).2 (ix2 d e)
      = Cert.Spec.Mat (V c main_arg0) (V c main_arg3) (V c main_arg4) (V c main_arg1) (V c main_arg2) b d e := by
  have hN : cfg0.N = 32 := N_0
  have hlt : 8 * b.val + 7 < cfg0.N := by have := b.isLt; omega
  rw [outsAt0_idx V c hb t.isLt hlt, acc V c (8 * b.val) (by omega) d e 7 (by omega) hlt, Finset.sum_range]
  unfold Cert.Spec.Mat
  refine Finset.sum_congr rfl fun k _ => ?_
  have hk : 8 * b.val + k.val < cfg0.N := by have := b.isLt; have := k.isLt; omega
  unfold tileN
  rw [dif_pos hk]
  exact tile_spec V c ⟨8 * b.val + k.val, hk⟩ b k rfl d e

/-! ## What is written back, and the whole array -/

/-- An index of the array is in point `t`'s block iff each coordinate is in the block's range on its axis. -/
theorem mem_blk5 (t : Fin cfg0.N) (i : S4x256x256.Idx) :
    i ∈ ((cfg0.win 5).blk t).view.set ↔ ∀ a : Fin 3, win0_5.index t a * S1x256x256.size a ≤ (i a).val ∧ (i a).val < win0_5.index t a * S1x256x256.size a + S1x256x256.size a := by
  show i ∈ ((View.whole main_v0).slice (win0_5.rect t)).set ↔ _
  rw [View.set_slice_whole, Rect.mem_set_unit]
  exact Iff.rfl

/-- WHAT THE LAST TILE OF A BATCH WRITES BACK is the batch's block of the specification's array. -/
theorem flushed_eq (c : Dev nD) (t : Fin cfg0.N) (hf : (cfg0.win 5).flush t = true) :
    (dat0 V c).flushed 5 t = ((cfg0.win 5).blk t).view.read (Elt Ideal) (Cert.Spec.Marr (V c main_arg0) (V c main_arg3) (V c main_arg4) (V c main_arg1) (V c main_arg2)) := by
  have hN : cfg0.N = 32 := N_0
  have h7 : t.val % 8 = 7 := (flush0_5 t).mp hf
  obtain ⟨e0, e1, e2⟩ := idx5 t
  show (cfg0.win 5).cut (grid0.coords t) ((dat0 V c).after 5 t) = _
  rw [after0_5]
  funext y
  obtain ⟨y0, d, e, rfl⟩ : ∃ (y0 : Fin 1) (d e : Fin 256), y = ix3 y0 d e := ⟨y 0, y 1, y 2, eq_ix3 y⟩
  obtain rfl : y0 = 0 := Subsingleton.elim _ _
  rw [View.read_apply]
  refine (out_eq_scr V c t d e).trans ?_
  have hb : t.val = 8 * (⟨t.val / 8, by have := t.isLt; omega⟩ : Fin 4).val + 7 := by show t.val = 8 * (t.val / 8) + 7; omega
  refine (acc_full V c t ⟨t.val / 8, by have := t.isLt; omega⟩ hb d e).trans ?_
  show _ = Cert.Spec.Mat _ _ _ _ _ _ _ _
  congr 1
  · apply Fin.ext
    show t.val / 8 = win0_5.index t (0 : Fin 3) * 1 + 1 * (0 : Fin 1).val
    rw [e0]; simp only [Fin.val_zero]; omega
  · apply Fin.ext
    show d.val = win0_5.index t (1 : Fin 3) * 256 + 1 * d.val
    rw [e1]; omega
  · apply Fin.ext
    show e.val = win0_5.index t (2 : Fin 3) * 256 + 1 * e.val
    rw [e2]; omega

/-- THE ARRAY the first call leaves is the specification's: the four batches' last tiles write back blocks that cover it. -/
theorem M_final (c : Dev nD) : ((dat0 (F := Ideal) V c).arrAt 5 cfg0.N : Cert.Spec.SM.Idx → EReal)
    = Cert.Spec.Marr (V c main_arg0) (V c main_arg3) (V c main_arg4) (V c main_arg1) (V c main_arg2) :=
  (dat0 V c).arrAt_eq_of_cover 5 (Cert.Spec.Marr (V c main_arg0) (V c main_arg3) (V c main_arg4) (V c main_arg1) (V c main_arg2)) (fun t hf => flushed_eq V c t hf) fun i => by
    have hN : cfg0.N = 32 := N_0
    have hi0 : (i 0).val < 4 := (i 0).isLt
    have hi1 : (i 1).val < 256 := (i 1).isLt
    have hi2 : (i 2).val < 256 := (i 2).isLt
    have ht : 8 * (i 0).val + 7 < cfg0.N := by omega
    obtain ⟨e0, e1, e2⟩ := idx5 ⟨8 * (i 0).val + 7, ht⟩
    refine ⟨⟨8 * (i 0).val + 7, ht⟩, (flush0_5 _).mpr (by show (8 * (i 0).val + 7) % 8 = 7; omega), ?_⟩
    rw [mem_blk5]
    intro a
    match a with
    | ⟨0, _⟩ => show win0_5.index ⟨8 * (i 0).val + 7, ht⟩ (0 : Fin 3) * 1 ≤ (i 0).val ∧ (i 0).val < win0_5.index ⟨8 * (i 0).val + 7, ht⟩ (0 : Fin 3) * 1 + 1
                rw [e0]; show (8 * (i 0).val + 7) / 8 * 1 ≤ (i 0).val ∧ (i 0).val < (8 * (i 0).val + 7) / 8 * 1 + 1; omega
    | ⟨1, _⟩ => show win0_5.index ⟨8 * (i 0).val + 7, ht⟩ (1 : Fin 3) * 256 ≤ (i 1).val ∧ (i 1).val < win0_5.index ⟨8 * (i 0).val + 7, ht⟩ (1 : Fin 3) * 256 + 256
                rw [e1]; omega
    | ⟨2, _⟩ => show win0_5.index ⟨8 * (i 0).val + 7, ht⟩ (2 : Fin 3) * 256 ≤ (i 2).val ∧ (i 2).val < win0_5.index ⟨8 * (i 0).val + 7, ht⟩ (2 : Fin 3) * 256 + 256
                rw [e2]; omega

end Cert.KernelIdeal.HandValue

end
-- ==== Proof.R1Pay.lean ====
import proofs.«174136_j47605417509124_1_alg».proof.Proof.Gen.KernelIdeal.Skeleton
import proofs.«174136_j47605417509124_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! # The second pass's payload at an index, over the extended reals

The body of `cc1__out_kernel` computes, from a [1,512,256] block `x` of the input, the φ layer's weight and
bias, a [1,256,256] block `M`, and the output layer's weight and bias, the block
  out(0, r, f) = ((∑ e, ((∑ d, ((∑ c, x(0,r,c) · φw(d,c)) + φb(d)) · M(0,d,e)) · 2⁻¹²) · Ww(f,e)) + Wb(f)) + x(0,r,f).
At the extended reals a change of float format is the identity and a `tpu.matmul` into a zero accumulator is the
sum over the contracted axis, so the payload read at `(0, r, f)` is that expression. -/

noncomputable section

namespace Cert.KernelIdeal.HandValue.Out

open Cert.KernelIdeal Cert.KernelIdeal.Gen
open Idealize.ShloMosaic Idealize.ShloMosaic.ValueIdx

/-- lhs axis 1 against rhs axis 1 (a weight stored with rows indexed by the output feature). -/
abbrev DT := dot_S512x256_S256x256_S512x256_1_1_0_0_n_n
/-- lhs axis 1 against rhs axis 0 (a plain matrix product). -/
abbrev DP := dot_S512x256_S256x256_S512x256_1_0_0_1_n_n

theorem DT_lhs0 (i : S512x256.Idx) (q : DT.contr.Idx) : (DT.lhsIdx i q 0).val = (i 0).val := by
  unfold DotDims.lhsIdx
  rw [dif_neg (show ¬(0 : Fin S512x256.rank) ∈ DT.lhsBatch by decide), dif_pos (show (0 : Fin S512x256.rank) ∈ DT.lhsNonContracting by decide)]
  rfl
theorem DT_lhs1 (i : S512x256.Idx) (q : DT.contr.Idx) : (DT.lhsIdx i q 1).val = (q ⟨0, by decide⟩).val :=
  DT.lhsIdx_val_of_single rfl i q
theorem DT_rhs0 (i : S512x256.Idx) (q : DT.contr.Idx) : (DT.rhsIdx i q 0).val = (i 1).val := by
  unfold DotDims.rhsIdx
  rw [dif_neg (show ¬(0 : Fin S256x256.rank) ∈ DT.rhsBatch by decide), dif_pos (show (0 : Fin S256x256.rank) ∈ DT.rhsNonContracting by decide)]
  rfl
theorem DT_rhs1 (i : S512x256.Idx) (q : DT.contr.Idx) : (DT.rhsIdx i q 1).val = (q ⟨0, by decide⟩).val :=
  DT.rhsIdx_val_of_single rfl i q

theorem DP_lhs0 (i : S512x256.Idx) (q : DP.contr.Idx) : (DP.lhsIdx i q 0).val = (i 0).val := by
  unfold DotDims.lhsIdx
  rw [dif_neg (show ¬(0 : Fin S512x256.rank) ∈ DP.lhsBatch by decide), dif_pos (show (0 : Fin S512x256.rank) ∈ DP.lhsNonContracting by decide)]
  rfl
theorem DP_lhs1 (i : S512x256.Idx) (q : DP.contr.Idx) : (DP.lhsIdx i q 1).val = (q ⟨0, by decide⟩).val :=
  DP.lhsIdx_val_of_single rfl i q
theorem DP_rhs0 (i : S512x256.Idx) (q : DP.contr.Idx) : (DP.rhsIdx i q 0).val = (q ⟨0, by decide⟩).val :=
  DP.rhsIdx_val_of_single rfl i q
theorem DP_rhs1 (i : S512x256.Idx) (q : DP.contr.Idx) : (DP.rhsIdx i q 1).val = (i 1).val := by
  unfold DotDims.rhsIdx
  rw [dif_neg (show ¬(1 : Fin S256x256.rank) ∈ DP.rhsBatch by decide), dif_pos (show (1 : Fin S256x256.rank) ∈ DP.rhsNonContracting by decide)]
  rfl

/-- A product against a weight stored by output feature: `(l · wᵀ)(r, d) = ∑ c, l(r,c) · w(d,c)`. -/
theorem mmT_apply {φ₁ φ₂ : FTy} (l : FVec Ideal S512x256 φ₁) (w : FVec Ideal S256x256 φ₂) (r : Fin 512) (d : Fin 256) :
    matmul DT none l w (constant S512x256 .f32 0x00000000#32) (ix2 r d) = ∑ c : Fin 256, l (ix2 r c) * w (ix2 d c) := by
  refine (Ideal.matmul_constant_zero_apply DT none l w (ix2 r d)).trans ?_
  rw [← Equiv.sum_comp (contrEquiv1 DT 256 rfl rfl).symm]
  refine Finset.sum_congr rfl fun k _ => ?_
  have hk := contrEquiv1_symm_val DT 256 rfl rfl k
  have el : DT.lhsIdx (ix2 r d) ((contrEquiv1 DT 256 rfl rfl).symm k) = ix2 r k := funext fun a => Fin.ext (by
    match a with
    | ⟨0, _⟩ => exact DT_lhs0 _ _
    | ⟨1, _⟩ => exact (DT_lhs1 _ _).trans hk)
  have er : DT.rhsIdx (ix2 r d) ((contrEquiv1 DT 256 rfl rfl).symm k) = ix2 d k := funext fun a => Fin.ext (by
    match a with
    | ⟨0, _⟩ => exact DT_rhs0 _ _
    | ⟨1, _⟩ => exact (DT_rhs1 _ _).trans hk)
  rw [el, er]

/-- A plain matrix product: `(l · m)(r, e) = ∑ d, l(r,d) · m(d,e)`. -/
theorem mmP_apply {φ₁ φ₂ : FTy} (l : FVec Ideal S512x256 φ₁) (mm : FVec Ideal S256x256 φ₂) (r : Fin 512) (e : Fin 256) :
    matmul DP none l mm (constant S512x256 .f32 0x00000000#32) (ix2 r e) = ∑ d : Fin 256, l (ix2 r d) * mm (ix2 d e) := by
  refine (Ideal.matmul_constant_zero_apply DP none l mm (ix2 r e)).trans ?_
  rw [← Equiv.sum_comp (contrEquiv1 DP 256 rfl rfl).symm]
  refine Finset.sum_congr rfl fun k _ => ?_
  have hk := contrEquiv1_symm_val DP 256 rfl rfl k
  have el : DP.lhsIdx (ix2 r e) ((contrEquiv1 DP 256 rfl rfl).symm k) = ix2 r k := funext fun a => Fin.ext (by
    match a with
    | ⟨0, _⟩ => exact DP_lhs0 _ _
    | ⟨1, _⟩ => exact (DP_lhs1 _ _).trans hk)
  have er : DP.rhsIdx (ix2 r e) ((contrEquiv1 DP 256 rfl rfl).symm k) = ix2 k e := funext fun a => Fin.ext (by
    match a with
    | ⟨0, _⟩ => exact (DP_rhs0 _ _).trans hk
    | ⟨1, _⟩ => exact DP_rhs1 _ _)
  rw [el, er]

/-- The payload at `(0, r, f)`. -/
theorem pay_apply (v0 : FVec Ideal S1x512x256 .f32) (v3 : FVec Ideal S256x256 .f32) (v6 : FVec Ideal S256 .f32)
    (v10 : FVec Ideal S1x256x256 .f32) (v17 : FVec Ideal S256x256 .f32) (v21 : FVec Ideal S256 .f32) (r : Fin 512) (f : Fin 256) :
    k1_pay1 (F := Ideal) v0 v3 v6 v10 v17 v21 (ix3 (0 : Fin 1) r f)
      = ((∑ e : Fin 256, ((∑ d : Fin 256, ((∑ c : Fin 256, v0 (ix3 (0 : Fin 1) r c) * v3 (ix2 d c)) + v6 (ix1 d)) * v10 (ix3 (0 : Fin 1) d e))
            * Cert.Spec.invN) * v17 (ix2 f e)) + v21 (ix1 f)) + v0 (ix3 (0 : Fin 1) r f) := by
  unfold k1_pay1
  simp only [shapeCast_ab_1ab_apply, addf_apply, mmT_apply, broadcastTo_1b_ab_apply, shapeCast_a_1a_apply, truncf_apply,
    mulf_apply, mmP_apply, broadcast_apply, shapeCast_1ab_ab_apply]
  rfl

end Cert.KernelIdeal.HandValue.Out

end
-- ==== Proof.R1Value.lean ====
import proofs.«174136_j47605417509124_1_alg».proof.Proof.KI.R1Frame
import proofs.«174136_j47605417509124_1_alg».proof.Proof.R1Pay
import Idealize.ShloMosaic.Lib.Pipeline.Value

/-! # Region 1's output array, over the extended reals

Point `t = 8 b + k` of the 4 × 8 grid writes block `(b, k, 0)` of the [4,4096,256] output: rows
`512 k … 512 k + 511` of batch `b`. Its input blocks are the same rows of `x`, batch `b` of `M`, and the whole
weights and biases; so what it writes back is that block of `Cert.Spec.out` of the arrays as the region finds
them. The 32 blocks tile the array (index `(b, n, f)` lies in the block of point `8 b + n / 512`), so the array
ends holding `Cert.Spec.out`. -/

noncomputable section

namespace Cert.KernelIdeal.HandValue.Out

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The grid has 32 points. -/
theorem N1 : cfg1.N = 32 := N_1

/-- The printed index maps, decided over the grid: the output's block index at point `t` is `(t / 8, t % 8, 0)`;
    the `x` window moves with it; the `M` window follows its batch; the weights and biases stay at block 0. -/
theorem idx_facts1 : ∀ t : Fin cfg1.N,
      win1_6.index t (0 : Fin 3) = t.val / 8 ∧ win1_6.index t (1 : Fin 3) = t.val % 8 ∧ win1_6.index t (2 : Fin 3) = 0
    ∧ win1_0.index t (0 : Fin 3) = t.val / 8 ∧ win1_0.index t (1 : Fin 3) = t.val % 8 ∧ win1_0.index t (2 : Fin 3) = 0
    ∧ win1_3.index t (0 : Fin 3) = t.val / 8 ∧ win1_3.index t (1 : Fin 3) = 0 ∧ win1_3.index t (2 : Fin 3) = 0
    ∧ win1_1.index t (0 : Fin 2) = 0 ∧ win1_1.index t (1 : Fin 2) = 0
    ∧ win1_2.index t (0 : Fin 1) = 0
    ∧ win1_4.index t (0 : Fin 2) = 0 ∧ win1_4.index t (1 : Fin 2) = 0
    ∧ win1_5.index t (0 : Fin 1) = 0 :=
  (by decide +kernel : ∀ t : Fin grid1.N, _)

/-! ## Each input block read off its array -/

/-- An element of the `x` window's block sits in the array at block index × block size + its coordinate. -/
theorem blk0_apply (c : Dev nD) (t : Fin cfg1.N) (y : S1x512x256.Idx) (k : S4x4096x256.Idx)
    (h0 : (k 0).val = win1_0.index t (0 : Fin 3) * 1 + 1 * (y 0).val)
    (h1 : (k 1).val = win1_0.index t (1 : Fin 3) * 512 + 1 * (y 1).val)
    (h2 : (k 2).val = win1_0.index t (2 : Fin 3) * 256 + 1 * (y 2).val) :
    (iblk1 V c 0 t : Vec Ideal S1x512x256 .f32) y = (V c main_arg0 : S4x4096x256.Idx → Elt Ideal .f32) k := by
  unfold iblk1
  rw [View.read_apply]
  show V c main_arg0 _ = V c main_arg0 _
  refine congrArg _ (funext fun a => Fin.ext ?_)
  match a with
  | ⟨0, _⟩ => exact h0.symm
  | ⟨1, _⟩ => exact h1.symm
  | ⟨2, _⟩ => exact h2.symm

/-- The same of the `M` window. -/
theorem blk3_apply (c : Dev nD) (t : Fin cfg1.N) (y : S1x256x256.Idx) (k : S4x256x256.Idx)
    (h0 : (k 0).val = win1_3.index t (0 : Fin 3) * 1 + 1 * (y 0).val)
    (h1 : (k 1).val = win1_3.index t (1 : Fin 3) * 256 + 1 * (y 1).val)
    (h2 : (k 2).val = win1_3.index t (2 : Fin 3) * 256 + 1 * (y 2).val) :
    (iblk1 V c 3 t : Vec Ideal S1x256x256 .f32) y = (V c main_v0 : S4x256x256.Idx → Elt Ideal .f32) k := by
  unfold iblk1
  rw [View.read_apply]
  show V c main_v0 _ = V c main_v0 _
  refine congrArg _ (funext fun a => Fin.ext ?_)
  match a with
  | ⟨0, _⟩ => exact h0.symm
  | ⟨1, _⟩ => exact h1.symm
  | ⟨2, _⟩ => exact h2.symm

/-- A weight's window is its whole array at every point. -/
theorem blk1_apply (c : Dev nD) (t : Fin cfg1.N) (p q : Fin 256) :
    (iblk1 V c 1 t : Vec Ideal S256x256 .f32) (ix2 p q) = (V c main_arg5 : S256x256.Idx → Elt Ideal .f32) (ix2 p q) := by
  obtain ⟨-, -, -, -, -, -, -, -, -, e0, e1, -⟩ := idx_facts1 t
  unfold iblk1
  rw [View.read_apply]
  show V c main_arg5 _ = V c main_arg5 _
  refine congrArg _ (funext fun a => Fin.ext ?_)
  match a with
  | ⟨0, _⟩ => show win1_1.index t (0 : Fin 2) * 256 + 1 * p.val = p.val; omega
  | ⟨1, _⟩ => show win1_1.index t (1 : Fin 2) * 256 + 1 * q.val = q.val; omega
theorem blk4_apply (c : Dev nD) (t : Fin cfg1.N) (p q : Fin 256) :
    (iblk1 V c 4 t : Vec Ideal S256x256 .f32) (ix2 p q) = (V c main_arg7 : S256x256.Idx → Elt Ideal .f32) (ix2 p q) := by
  obtain ⟨-, -, -, -, -, -, -, -, -, -, -, -, e0, e1, -⟩ := idx_facts1 t
  unfold iblk1
  rw [View.read_apply]
  show V c main_arg7 _ = V c main_arg7 _
  refine congrArg _ (funext fun a => Fin.ext ?_)
  match a with
  | ⟨0, _⟩ => show win1_4.index t (0 : Fin 2) * 256 + 1 * p.val = p.val; omega
  | ⟨1, _⟩ => show win1_4.index t (1 : Fin 2) * 256 + 1 * q.val = q.val; omega
/-- A bias's window likewise. -/
theorem blk2_apply (c : Dev nD) (t : Fin cfg1.N) (p : Fin 256) :
    (iblk1 V c 2 t : Vec Ideal S256 .f32) (ix1 p) = (V c main_arg6 : S256.Idx → Elt Ideal .f32) (ix1 p) := by
  obtain ⟨-, -, -, -, -, -, -, -, -, -, -, e0, -⟩ := idx_facts1 t
  unfold iblk1
  rw [View.read_apply]
  show V c main_arg6 _ = V c main_arg6 _
  refine congrArg _ (funext fun a => Fin.ext ?_)
  match a with
  | ⟨0, _⟩ => show win1_2.index t (0 : Fin 1) * 256 + 1 * p.val = p.val; omega
theorem blk5_apply (c : Dev nD) (t : Fin cfg1.N) (p : Fin 256) :
    (iblk1 V c 5 t : Vec Ideal S256 .f32) (ix1 p) = (V c main_arg8 : S256.Idx → Elt Ideal .f32) (ix1 p) := by
  obtain ⟨-, -, -, -, -, -, -, -, -, -, -, -, -, -, e0⟩ := idx_facts1 t
  unfold iblk1
  rw [View.read_apply]
  show V c main_arg8 _ = V c main_arg8 _
  refine congrArg _ (funext fun a => Fin.ext ?_)
  match a with
  | ⟨0, _⟩ => show win1_5.index t (0 : Fin 1) * 256 + 1 * p.val = p.val; omega

/-! ## What a point writes back -/

/-- What point `t` writes back is block `t` of `Cert.Spec.out` of the arrays as the region finds them. -/
theorem flushed6_eq (c : Dev nD) (t : Fin cfg1.N) :
    (dat1 V c).flushed 6 t = ((cfg1.win 6).blk t).view.read (Elt Ideal)
      (Cert.Spec.out (V c main_arg0) (V c main_arg5) (V c main_arg6) (V c main_v0) (V c main_arg7) (V c main_arg8)) := by
  show (cfg1.win 6).cut (grid1.coords t) ((dat1 V c).after 6 t) = _
  rw [after1_6]
  unfold out1_6
  rw [View.canon_unit_zero hz3]
  simp only [View.ld_unit_zero (S := S1x512x256) hz3, View.ld_unit_zero (S := S256x256) hz2, View.ld_unit_zero (S := S256) hz1,
    View.ld_unit_zero (S := S1x256x256) hz3]
  obtain ⟨o0, o1, o2, x0, x1, x2, m0, m1, m2, -⟩ := idx_facts1 t
  have ht : t.val < 32 := lt_of_lt_of_eq t.isLt N1
  funext j
  obtain ⟨u, r, f, rfl⟩ : ∃ (u : Fin 1) (r : Fin 512) (f : Fin 256), j = ix3 u r f := ⟨j 0, j 1, j 2, eq_ix3 j⟩
  obtain rfl : u = 0 := Subsingleton.elim _ _
  rw [View.read_apply]
  -- the array index the block's element (0, r, f) sits at: batch t / 8, row 512 (t % 8) + r, feature f
  have hi : ((cfg1.win 6).blk t).view.emb (ix3 (0 : Fin 1) r f)
      = (ix3 (⟨t.val / 8, by omega⟩ : Fin 4) (⟨512 * (t.val % 8) + r.val, by have := r.isLt; omega⟩ : Fin 4096) f : S4x4096x256.Idx) := by
    funext a; apply Fin.ext
    match a with
    | ⟨0, _⟩ => show win1_6.index t (0 : Fin 3) * 1 + 1 * 0 = t.val / 8; omega
    | ⟨1, _⟩ => show win1_6.index t (1 : Fin 3) * 512 + 1 * r.val = 512 * (t.val % 8) + r.val; omega
    | ⟨2, _⟩ => show win1_6.index t (2 : Fin 3) * 256 + 1 * f.val = f.val; omega
  rw [hi]
  refine (pay_apply _ _ _ _ _ _ r f).trans ?_
  show _ = Cert.Spec.outAt _ _ _ _ _ _ (⟨t.val / 8, _⟩ : Fin 4) (⟨512 * (t.val % 8) + r.val, _⟩ : Fin 4096) f
  unfold Cert.Spec.outAt Cert.Spec.lin
  have e0 : ∀ cc : Fin 256, (iblk1 V c 0 t : Vec Ideal S1x512x256 .f32) (ix3 (0 : Fin 1) r cc)
      = (V c main_arg0 : S4x4096x256.Idx → Elt Ideal .f32) (ix3 (⟨t.val / 8, by omega⟩ : Fin 4) (⟨512 * (t.val % 8) + r.val, by have := r.isLt; omega⟩ : Fin 4096) cc) :=
    fun cc => blk0_apply V c t _ _ (by show t.val / 8 = win1_0.index t (0 : Fin 3) * 1 + 1 * 0; omega)
      (by show 512 * (t.val % 8) + r.val = win1_0.index t (1 : Fin 3) * 512 + 1 * r.val; omega)
      (by show cc.val = win1_0.index t (2 : Fin 3) * 256 + 1 * cc.val; omega)
  have e3 : ∀ d e : Fin 256, (iblk1 V c 3 t : Vec Ideal S1x256x256 .f32) (ix3 (0 : Fin 1) d e)
      = (V c main_v0 : S4x256x256.Idx → Elt Ideal .f32) (ix3 (⟨t.val / 8, by omega⟩ : Fin 4) d e) :=
    fun d e => blk3_apply V c t _ _ (by show t.val / 8 = win1_3.index t (0 : Fin 3) * 1 + 1 * 0; omega)
      (by show d.val = win1_3.index t (1 : Fin 3) * 256 + 1 * d.val; omega)
      (by show e.val = win1_3.index t (2 : Fin 3) * 256 + 1 * e.val; omega)
  simp only [e0, e3, blk1_apply, blk2_apply, blk4_apply, blk5_apply]

/-! ## The blocks tile the array -/

/-- An index of the array is in point `t`'s block iff each coordinate is in the block's range on its axis. -/
theorem mem_blk6 (t : Fin cfg1.N) (i : S4x4096x256.Idx) :
    i ∈ ((cfg1.win 6).blk t).view.set ↔ ∀ a : Fin 3, win1_6.index t a * S1x512x256.size a ≤ (i a).val
      ∧ (i a).val < win1_6.index t a * S1x512x256.size a + S1x512x256.size a := by
  show i ∈ ((View.whole main_v1).slice (win1_6.rect t)).set ↔ _
  rw [View.set_slice_whole, Rect.mem_set_unit]
  exact Iff.rfl

/-- Index `(b, n, f)` lies in the block of point `8 b + n / 512`, which writes back. -/
theorem cover6 (i : S4x4096x256.Idx) :
    ∃ t : Fin cfg1.N, (cfg1.win 6).flush t = true ∧ i ∈ ((cfg1.win 6).blk t).view.set := by
  have h0 : (i 0).val < 4 := (i 0).isLt
  have h1 : (i 1).val < 4096 := (i 1).isLt
  have h2 : (i 2).val < 256 := (i 2).isLt
  have hlt : 8 * (i 0).val + (i 1).val / 512 < cfg1.N := by rw [N1]; omega
  refine ⟨⟨8 * (i 0).val + (i 1).val / 512, hlt⟩, flush1_6 _, ?_⟩
  obtain ⟨o0, o1, o2, -⟩ := idx_facts1 ⟨8 * (i 0).val + (i 1).val / 512, hlt⟩
  rw [mem_blk6]
  intro a
  match a with
  | ⟨0, _⟩ =>
    show win1_6.index ⟨8 * (i 0).val + (i 1).val / 512, hlt⟩ (0 : Fin 3) * 1 ≤ (i 0).val
      ∧ (i 0).val < win1_6.index ⟨8 * (i 0).val + (i 1).val / 512, hlt⟩ (0 : Fin 3) * 1 + 1
    rw [o0]; show (8 * (i 0).val + (i 1).val / 512) / 8 * 1 ≤ (i 0).val ∧ (i 0).val < (8 * (i 0).val + (i 1).val / 512) / 8 * 1 + 1
    omega
  | ⟨1, _⟩ =>
    show win1_6.index ⟨8 * (i 0).val + (i 1).val / 512, hlt⟩ (1 : Fin 3) * 512 ≤ (i 1).val
      ∧ (i 1).val < win1_6.index ⟨8 * (i 0).val + (i 1).val / 512, hlt⟩ (1 : Fin 3) * 512 + 512
    rw [o1]; show (8 * (i 0).val + (i 1).val / 512) % 8 * 512 ≤ (i 1).val ∧ (i 1).val < (8 * (i 0).val + (i 1).val / 512) % 8 * 512 + 512
    omega
  | ⟨2, _⟩ =>
    show win1_6.index ⟨8 * (i 0).val + (i 1).val / 512, hlt⟩ (2 : Fin 3) * 256 ≤ (i 2).val
      ∧ (i 2).val < win1_6.index ⟨8 * (i 0).val + (i 1).val / 512, hlt⟩ (2 : Fin 3) * 256 + 256
    rw [o2]; omega

/-! ## The array after the region -/

/-- The output array after the 32 points: `Cert.Spec.out` of the arrays as the region finds them. -/
theorem out_final (c : Dev nD) : ((dat1 (F := Ideal) V c).arrAt 6 cfg1.N : Cert.Spec.SX.Idx → EReal)
    = Cert.Spec.out (V c main_arg0) (V c main_arg5) (V c main_arg6) (V c main_v0) (V c main_arg7) (V c main_arg8) :=
  (dat1 V c).arrAt_eq_of_cover 6
    (Cert.Spec.out (V c main_arg0) (V c main_arg5) (V c main_arg6) (V c main_v0) (V c main_arg7) (V c main_arg8))
    (fun t _ => flushed6_eq V c t) cover6

end Cert.KernelIdeal.HandValue.Out

end
-- ==== Proof.KValue.lean ====
/-
  The idealized kernel's run with its result named: the second pass's write-backs are `Spec.out` of the arrays it finds,
  the matrix it finds is what the first pass's write-backs left, `Spec.Marr` of the launch arrays, and every argument it
  finds is as launched.
-/
import proofs.«174136_j47605417509124_1_alg».proof.Proof.KI.Run
import proofs.«174136_j47605417509124_1_alg».proof.Proof.R0Value
import proofs.«174136_j47605417509124_1_alg».proof.Proof.R1Value
import proofs.«174136_j47605417509124_1_alg».proof.Proof.Spec

noncomputable section

namespace Cert.KernelIdeal.HandValue

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

/-- The result as a function of the launch arrays. -/
abbrev result (c : Dev nD) : Cert.Spec.SX.Idx → EReal :=
  Cert.Spec.out (m ((c.tc : Thread nD τ).loc main_arg0)) (m ((c.tc : Thread nD τ).loc main_arg5)) (m ((c.tc : Thread nD τ).loc main_arg6))
    (Cert.Spec.Marr (m ((c.tc : Thread nD τ).loc main_arg0)) (m ((c.tc : Thread nD τ).loc main_arg3)) (m ((c.tc : Thread nD τ).loc main_arg4))
      (m ((c.tc : Thread nD τ).loc main_arg1)) (m ((c.tc : Thread nD τ).loc main_arg2)))
    (m ((c.tc : Thread nD τ).loc main_arg7)) (m ((c.tc : Thread nD τ).loc main_arg8))

/-- What the second pass leaves in the result array, from the launch arrays. -/
theorem final (c : Dev nD) :
    ((dat1 (F := Ideal) (V1 m ρ) c).arrAt 6 cfg1.N : Cert.Spec.SX.Idx → EReal) = result m c := by
  rw [Out.out_final (V1 m ρ) c, V1_main_arg0, V1_main_arg5, V1_main_arg6, V1_main_arg7, V1_main_arg8, V1_main_v0, M_final (V0 m ρ) c]

/-- Every weakly fair execution of the idealized kernel terminates with the result at `result` and the arguments unchanged. -/
theorem run : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (final m ρ c), (h c).2⟩) (Cert.KernelIdeal.Hand.run (F := Ideal) m ρ)

end Cert.KernelIdeal.HandValue

end
-- ==== Proof.Algebra.lean ====
/-
  The reference's arrangement of the result, and the law that identifies it with the two-pass arrangement of Spec.lean.

  With θ, g, φ the three linear layers of x (Spec's `lin`), the reference forms, per batch b,
    f(b, i, j)  = (∑ c, φ(b, i, c) · θ(b, j, c)) / 4096                          -- a [4096, 4096] table of scaled scores
    y'(b, i, e) = ∑ j < 4096, f(b, i, j) · g(b, j, e)
    result(b, n, f) = ((∑ e, y'(b, n, e) · W(f, e)) + W_b(f)) + x(b, n, f).
  When every entry is a real number the sums may be exchanged:
    ∑ j ((∑ c φ_c θ_jc) / 4096) g_j = (∑ d φ_d (∑ j θ_jd g_j)) · 2⁻¹²,
  division by 4096 being the product with 1/4096 = 2⁻¹², and the sum over the 4096 rows j is the sum over the 8 tiles k
  of the sums over the 512 rows r of a tile, at row 512 k + r. So y' is Spec's y, and the result is Spec's `out` at the
  array `Marr` = θᵀ g.
-/
import proofs.«174136_j47605417509124_1_alg».proof.Proof.Spec
import Idealize.ShloMosaic.PureOps.Ideal
import Idealize.ShloMosaic.PureOps.Ideal.Laws

noncomputable section

namespace Cert.Algebra

open Idealize.ShloMosaic Idealize.ShloMosaic.ValueIdx Cert.Spec

/-! ## The two float words -/

/-- The word `0x45800000` denotes the real 4096. -/
theorem ofBits_4096 : Ideal.ofBits .f32 0x45800000#32 = ((4096 : ℝ) : EReal) := by
  simp [Ideal.ofBits, Ideal.ieee, -EReal.coe_mul]; norm_num

/-- The word `0x39800000` denotes the real 1/4096 = 2⁻¹². -/
theorem ofBits_inv4096 : Ideal.ofBits .f32 0x39800000#32 = ((1 / 4096 : ℝ) : EReal) := by
  simp [Ideal.ofBits, Ideal.ieee, -EReal.coe_mul]; norm_num

/-! ## Finite sums of reals inside the extended reals -/

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The rows of the sequence axis, tile by tile -/

/-- A pair (tile, row of the tile) is a row of the sequence axis: `(k, r) ↦ 512 k + r` is a bijection. -/
def rowEquiv : Fin 8 × Fin 512 ≃ Fin 4096 where
  toFun p := row p.1 p.2
  invFun j := (⟨j.val / 512, by have := j.isLt; omega⟩, ⟨j.val % 512, by omega⟩)
  left_inv p := by
    obtain ⟨k, r⟩ := p
    refine Prod.ext (Fin.ext ?_) (Fin.ext ?_)
    · show (512 * k.val + r.val) / 512 = k.val
      have := r.isLt; omega
    · show (512 * k.val + r.val) % 512 = r.val
      have := r.isLt; omega
  right_inv j := Fin.ext (by show 512 * (j.val / 512) + j.val % 512 = j.val; omega)

/-- A sum over the 4096 rows is the sum over the 8 tiles of the sums over a tile's 512 rows. -/
theorem sum_rows {M : Type*} [AddCommMonoid M] (F : Fin 4096 → M) :
    ∑ j : Fin 4096, F j = ∑ k : Fin 8, ∑ r : Fin 512, F (row k r) := by
  rw [← Fintype.sum_prod_type' (f := fun k r => F (row k r))]
  exact (Fintype.sum_equiv rowEquiv _ _ (fun _ => rfl)).symm

/-! ## The exchange of sums -/

/-- Over the reals: `∑ j ((∑ c φ_c θ_jc) · s) g_j = (∑ d φ_d (∑ j θ_jd g_j)) · s`. -/
theorem exchange_real {J C : Type*} [Fintype J] [Fintype C] (φ : C → ℝ) (θ : J → C → ℝ) (g : J → ℝ) (s : ℝ) :
    ∑ j, ((∑ c, φ c * θ j c) * s) * g j = (∑ d, φ d * ∑ j, θ j d * g j) * s := by
  simp only [Finset.sum_mul, Finset.mul_sum]
  rw [Finset.sum_comm]
  exact Finset.sum_congr rfl fun c _ => Finset.sum_congr rfl fun j _ => by ring

/-- The same in the extended reals at real entries, the scale on the left being the division by the word for 4096
    and on the right the product with the word for 2⁻¹². -/
theorem exchange {J C : Type*} [Fintype J] [Fintype C] (φ : C → ℝ) (θ : J → C → ℝ) (g : J → ℝ) :
    ∑ j, Ideal.div (∑ c, (φ c : EReal) * (θ j c : EReal)) (Ideal.ofBits .f32 0x45800000#32) * (g j : EReal)
      = (∑ d, (φ d : EReal) * ∑ j, (θ j d : EReal) * (g j : EReal)) * invN := by
  show _ = _ * Ideal.ofBits .f32 0x39800000#32
  rw [ofBits_4096, ofBits_inv4096]
  simp only [Ideal.div_coe (by norm_num : (4096 : ℝ) ≠ 0), ← EReal.coe_mul, ← coe_sum]
  exact congrArg _ (exchange_real φ θ g (1 / 4096))

/-! ## A linear layer of real arrays is real -/

theorem lin_real {x : SX.Idx → EReal} {w : SW.Idx → EReal} {bias : SB.Idx → EReal}
    (hx : Finite x) (hw : Finite w) (hb : Finite bias) :
    ∃ L : Fin 4 → Fin 4096 → Fin 256 → ℝ, ∀ b n d, lin x w bias b n d = (L b n d : EReal) := by
  choose xr hxr using hx
  choose wr hwr using hw
  choose br hbr using hb
  refine ⟨fun b n d => (∑ c : Fin 256, xr (ix3 b n c) * wr (ix2 d c)) + br (ix1 d), fun b n d => ?_⟩
  unfold lin
  simp only [hxr, hwr, hbr, ← EReal.coe_mul, ← coe_sum, ← EReal.coe_add]

/-! ## The reference's arrangement -/

/-- The reference's scaled score `f(b, i, j) = (∑ c, φ(b, i, c) · θ(b, j, c)) / 4096`. -/
def refScore (x : SX.Idx → EReal) (tw : SW.Idx → EReal) (tb : SB.Idx → EReal) (pw : SW.Idx → EReal) (pb : SB.Idx → EReal)
    (b : Fin 4) (i j : Fin 4096) : EReal :=
  Ideal.div (∑ c : Fin 256, lin x pw pb b i c * lin x tw tb b j c) (Ideal.ofBits .f32 0x45800000#32)

/-- The reference's `y'(b, i, e) = ∑ j, f(b, i, j) · g(b, j, e)`. -/
def refY (x : SX.Idx → EReal) (gw : SW.Idx → EReal) (gb : SB.Idx → EReal) (tw : SW.Idx → EReal) (tb : SB.Idx → EReal)
    (pw : SW.Idx → EReal) (pb : SB.Idx → EReal) (b : Fin 4) (i : Fin 4096) (e : Fin 256) : EReal :=
  ∑ j : Fin 4096, refScore x tw tb pw pb b i j * lin x gw gb b j e

/-- The reference's result at `(b, n, f)`. -/
def refOutAt (x : SX.Idx → EReal) (gw : SW.Idx → EReal) (gb : SB.Idx → EReal) (tw : SW.Idx → EReal) (tb : SB.Idx → EReal)
    (pw : SW.Idx → EReal) (pb : SB.Idx → EReal) (ww : SW.Idx → EReal) (wb : SB.Idx → EReal)
    (b : Fin 4) (n : Fin 4096) (f : Fin 256) : EReal :=
  ((∑ e : Fin 256, refY x gw gb tw tb pw pb b n e * ww (ix2 f e)) + wb (ix1 f)) + x (ix3 b n f)

/-- The reference's whole [4, 4096, 256] result. -/
def refOut (x : SX.Idx → EReal) (gw : SW.Idx → EReal) (gb : SB.Idx → EReal) (tw : SW.Idx → EReal) (tb : SB.Idx → EReal)
    (pw : SW.Idx → EReal) (pb : SB.Idx → EReal) (ww : SW.Idx → EReal) (wb : SB.Idx → EReal) : SX.Idx → EReal :=
  fun j => refOutAt x gw gb tw tb pw pb ww wb (j 0) (j 1) (j 2)

/-! ## The reference's arrangement is Spec's -/

/-- `y'` is Spec's `y`: the φ row against the array θᵀ g, scaled by 2⁻¹². -/
theorem refY_eq {x : SX.Idx → EReal} {gw : SW.Idx → EReal} {gb : SB.Idx → EReal} {tw : SW.Idx → EReal} {tb : SB.Idx → EReal}
    {pw : SW.Idx → EReal} {pb : SB.Idx → EReal}
    (hx : Finite x) (hgw : Finite gw) (hgb : Finite gb) (htw : Finite tw) (htb : Finite tb) (hpw : Finite pw) (hpb : Finite pb)
    (b : Fin 4) (n : Fin 4096) (e : Fin 256) :
    refY x gw gb tw tb pw pb b n e = (∑ d : Fin 256, lin x pw pb b n d * Marr x tw tb gw gb (ix3 b d e)) * invN := by
  obtain ⟨G, hG⟩ := lin_real hx hgw hgb
  obtain ⟨T, hT⟩ := lin_real hx htw htb
  obtain ⟨P, hP⟩ := lin_real hx hpw hpb
  have hM : ∀ d : Fin 256, Marr x tw tb gw gb (ix3 b d e) = ∑ j : Fin 4096, (T b j d : EReal) * (G b j e : EReal) := fun d => by
    show Mat x tw tb gw gb b d e = _
    unfold Mat
    simp only [hT, hG]
    exact (sum_rows (fun j => (T b j d : EReal) * (G b j e : EReal))).symm
  unfold refY refScore
  simp only [hM, hP, hT, hG]
  exact exchange (P b n) (fun j c => T b j c) (fun j => G b j e)

/-- At one index `(b, n, f)`: the two results differ only in `y'` against `y`. -/
theorem refOutAt_eq {x : SX.Idx → EReal} {gw : SW.Idx → EReal} {gb : SB.Idx → EReal} {tw : SW.Idx → EReal} {tb : SB.Idx → EReal}
    {pw : SW.Idx → EReal} {pb : SB.Idx → EReal} (ww : SW.Idx → EReal) (wb : SB.Idx → EReal)
    (hx : Finite x) (hgw : Finite gw) (hgb : Finite gb) (htw : Finite tw) (htb : Finite tb) (hpw : Finite pw) (hpb : Finite pb)
    (b : Fin 4) (n : Fin 4096) (f : Fin 256) :
    refOutAt x gw gb tw tb pw pb ww wb b n f = outAt x pw pb (Marr x tw tb gw gb) ww wb b n f := by
  unfold refOutAt outAt
  simp only [refY_eq hx hgw hgb htw htb hpw hpb]

/-- The reference's result is Spec's `out` at the array θᵀ g, when the arrays x and the three layers' weights and
    biases hold real numbers. -/
theorem refOut_eq {x : SX.Idx → EReal} {gw : SW.Idx → EReal} {gb : SB.Idx → EReal} {tw : SW.Idx → EReal} {tb : SB.Idx → EReal}
    {pw : SW.Idx → EReal} {pb : SB.Idx → EReal} (ww : SW.Idx → EReal) (wb : SB.Idx → EReal)
    (hx : Finite x) (hgw : Finite gw) (hgb : Finite gb) (htw : Finite tw) (htb : Finite tb) (hpw : Finite pw) (hpb : Finite pb) :
    refOut x gw gb tw tb pw pb ww wb = out x pw pb (Marr x tw tb gw gb) ww wb :=
  funext fun j => refOutAt_eq ww wb hx hgw hgb htw htb hpw hpb (j 0) (j 1) (j 2)

end Cert.Algebra

end
-- ==== Proof.RefValue.lean ====
/-
  The reference's last stage is the function `refOut` of Algebra.lean, and so — every array holding real numbers — Spec's
  `out` at the array θᵀ g.

  The reference's operations in order: three linear layers of x (a contraction of x's last axis with a weight's last
  axis, plus the bias broadcast along the feature axis): g from (arg1, arg2), θ from (arg3, arg4), φ from (arg5, arg6);
  the scores φ θᵀ per batch, divided by the constant 4096; the scores against g per batch, contracting the 4096 rows;
  the output layer (arg7, arg8); plus x. Each stage is read at an index `(b, n, d)` written by its coordinates; the
  index functions the stages read their operands at are identified with the coordinate constructors once each.
-/
import proofs.«174136_j47605417509124_1_alg».proof.Defs
import proofs.«174136_j47605417509124_1_alg».proof.Proof.Gen.ReferenceIdeal.Run
import proofs.«174136_j47605417509124_1_alg».proof.Proof.Gen.ReferenceIdeal.Read
import proofs.«174136_j47605417509124_1_alg».proof.Proof.Spec
import proofs.«174136_j47605417509124_1_alg».proof.Proof.Algebra

noncomputable section

namespace Cert.ReferenceIdeal.RefValue

open Cert.ReferenceIdeal Cert.ReferenceIdeal.Gen Cert.ReferenceIdeal.Read
open Idealize.ShloMosaic Idealize.ShloMosaic.ValueIdx
open Cert.Spec Cert.Algebra

variable (x : (⟨S4x4096x256, .f32⟩ : BufTy).Contents (Elt Ideal))
  (gw : (⟨S256x256, .f32⟩ : BufTy).Contents (Elt Ideal)) (gb : (⟨S256, .f32⟩ : BufTy).Contents (Elt Ideal))
  (tw : (⟨S256x256, .f32⟩ : BufTy).Contents (Elt Ideal)) (tb : (⟨S256, .f32⟩ : BufTy).Contents (Elt Ideal))
  (pw : (⟨S256x256, .f32⟩ : BufTy).Contents (Elt Ideal)) (pb : (⟨S256, .f32⟩ : BufTy).Contents (Elt Ideal))
  (ww : (⟨S256x256, .f32⟩ : BufTy).Contents (Elt Ideal)) (wb : (⟨S256, .f32⟩ : BufTy).Contents (Elt Ideal))

/-! ### The layer g -/

theorem lidx0 (b : Fin 4) (n : Fin 4096) (d c : Fin 256) : lidx_main_v0 (ix3 b n d) c = ix3 b n c :=
  funext fun a => Fin.ext (by match a with | ⟨0, _⟩ => rfl | ⟨1, _⟩ => rfl | ⟨2, _⟩ => rfl)
theorem ridx0 (b : Fin 4) (n : Fin 4096) (d c : Fin 256) : ridx_main_v0 (ix3 b n d) c = ix2 d c :=
  funext fun a => Fin.ext (by match a with | ⟨0, _⟩ => rfl | ⟨1, _⟩ => rfl)
theorem bidx1 (b : Fin 4) (n : Fin 4096) (d : Fin 256) : idx_main_v1 (idx_main_v2 (ix3 b n d)) = ix1 d :=
  funext fun a => Fin.ext (by match a with | ⟨0, _⟩ => rfl)

/-- The layer g, read at `(b, n, d)`: the row of `x` against row `d` of the weight, plus the bias at `d`. -/
theorem g_at (b : Fin 4) (n : Fin 4096) (d : Fin 256) :
    val_main_v3 (F := Ideal) x gw gb (ix3 b n d) = lin x gw gb b n d := by
  rw [val_main_v3_apply, val_main_v0_apply, val_main_v2_apply, val_main_v1_apply, bidx1]
  simp only [lidx0, ridx0, Ideal.addf_def]
  rfl

/-! ### The layer θ -/

theorem lidx4 (b : Fin 4) (n : Fin 4096) (d c : Fin 256) : lidx_main_v4 (ix3 b n d) c = ix3 b n c :=
  funext fun a => Fin.ext (by match a with | ⟨0, _⟩ => rfl | ⟨1, _⟩ => rfl | ⟨2, _⟩ => rfl)
theorem ridx4 (b : Fin 4) (n : Fin 4096) (d c : Fin 256) : ridx_main_v4 (ix3 b n d) c = ix2 d c :=
  funext fun a => Fin.ext (by match a with | ⟨0, _⟩ => rfl | ⟨1, _⟩ => rfl)
theorem bidx5 (b : Fin 4) (n : Fin 4096) (d : Fin 256) : idx_main_v5 (idx_main_v6 (ix3 b n d)) = ix1 d :=
  funext fun a => Fin.ext (by match a with | ⟨0, _⟩ => rfl)

/-- The layer θ, read at `(b, n, d)`: the row of `x` against row `d` of the weight, plus the bias at `d`. -/
theorem θ_at (b : Fin 4) (n : Fin 4096) (d : Fin 256) :
    val_main_v7 (F := Ideal) x tw tb (ix3 b n d) = lin x tw tb b n d := by
  rw [val_main_v7_apply, val_main_v4_apply, val_main_v6_apply, val_main_v5_apply, bidx5]
  simp only [lidx4, ridx4, Ideal.addf_def]
  rfl

/-! ### The layer φ -/

theorem lidx8 (b : Fin 4) (n : Fin 4096) (d c : Fin 256) : lidx_main_v8 (ix3 b n d) c = ix3 b n c :=
  funext fun a => Fin.ext (by match a with | ⟨0, _⟩ => rfl | ⟨1, _⟩ => rfl | ⟨2, _⟩ => rfl)
theorem ridx8 (b : Fin 4) (n : Fin 4096) (d c : Fin 256) : ridx_main_v8 (ix3 b n d) c = ix2 d c :=
  funext fun a => Fin.ext (by match a with | ⟨0, _⟩ => rfl | ⟨1, _⟩ => rfl)
theorem bidx9 (b : Fin 4) (n : Fin 4096) (d : Fin 256) : idx_main_v9 (idx_main_v10 (ix3 b n d)) = ix1 d :=
  funext fun a => Fin.ext (by match a with | ⟨0, _⟩ => rfl)

/-- The layer φ, read at `(b, n, d)`: the row of `x` against row `d` of the weight, plus the bias at `d`. -/
theorem φ_at (b : Fin 4) (n : Fin 4096) (d : Fin 256) :
    val_main_v11 (F := Ideal) x pw pb (ix3 b n d) = lin x pw pb b n d := by
  rw [val_main_v11_apply, val_main_v8_apply, val_main_v10_apply, val_main_v9_apply, bidx9]
  simp only [lidx8, ridx8, Ideal.addf_def]
  rfl

/-! ### The scores, scaled -/

theorem lidx12 (b : Fin 4) (i j : Fin 4096) (c : Fin 256) : lidx_main_v12 (ix3 b i j) c = ix3 b i c :=
  funext fun a => Fin.ext (by match a with | ⟨0, _⟩ => rfl | ⟨1, _⟩ => rfl | ⟨2, _⟩ => rfl)
theorem ridx12 (b : Fin 4) (i j : Fin 4096) (c : Fin 256) : ridx_main_v12 (ix3 b i j) c = ix3 b j c :=
  funext fun a => Fin.ext (by match a with | ⟨0, _⟩ => rfl | ⟨1, _⟩ => rfl | ⟨2, _⟩ => rfl)

/-- The divided scores at `(b, i, j)`: row `i` of φ against row `j` of θ, over the word for 4096. -/
theorem score_at (b : Fin 4) (i j : Fin 4096) :
    val_main_v14 (F := Ideal) x tw tb pw pb (ix3 b i j) = refScore x tw tb pw pb b i j := by
  rw [val_main_v14_apply, val_main_v12_apply, val_main_v13_apply, val_main_cst_apply]
  simp only [lidx12, ridx12, φ_at, θ_at, Ideal.hostDivf_def, Ideal.ofBits_def]
  rfl

/-! ### The scores against g -/

theorem lidx15 (b : Fin 4) (n : Fin 4096) (e : Fin 256) (j : Fin 4096) : lidx_main_v15 (ix3 b n e) j = ix3 b n j :=
  funext fun a => Fin.ext (by match a with | ⟨0, _⟩ => rfl | ⟨1, _⟩ => rfl | ⟨2, _⟩ => rfl)
theorem ridx15 (b : Fin 4) (n : Fin 4096) (e : Fin 256) (j : Fin 4096) : ridx_main_v15 (ix3 b n e) j = ix3 b j e :=
  funext fun a => Fin.ext (by match a with | ⟨0, _⟩ => rfl | ⟨1, _⟩ => rfl | ⟨2, _⟩ => rfl)

/-- At `(b, n, e)`: row `n` of the divided scores against column `e` of g, over the 4096 rows. -/
theorem y_at (b : Fin 4) (n : Fin 4096) (e : Fin 256) :
    val_main_v15 (F := Ideal) x gw gb tw tb pw pb (ix3 b n e) = refY x gw gb tw tb pw pb b n e := by
  rw [val_main_v15_apply]
  simp only [lidx15, ridx15, score_at, g_at]
  rfl

/-! ### The output layer and the residual -/

theorem lidx16 (b : Fin 4) (n : Fin 4096) (f e : Fin 256) : lidx_main_v16 (ix3 b n f) e = ix3 b n e :=
  funext fun a => Fin.ext (by match a with | ⟨0, _⟩ => rfl | ⟨1, _⟩ => rfl | ⟨2, _⟩ => rfl)
theorem ridx16 (b : Fin 4) (n : Fin 4096) (f e : Fin 256) : ridx_main_v16 (ix3 b n f) e = ix2 f e :=
  funext fun a => Fin.ext (by match a with | ⟨0, _⟩ => rfl | ⟨1, _⟩ => rfl)
theorem bidx17 (b : Fin 4) (n : Fin 4096) (f : Fin 256) : idx_main_v17 (idx_main_v18 (ix3 b n f)) = ix1 f :=
  funext fun a => Fin.ext (by match a with | ⟨0, _⟩ => rfl)

/-- The last stage at `(b, n, f)`. -/
theorem out_at (b : Fin 4) (n : Fin 4096) (f : Fin 256) :
    val_main_v20 (F := Ideal) x gw gb tw tb pw pb ww wb (ix3 b n f) = refOutAt x gw gb tw tb pw pb ww wb b n f := by
  rw [val_main_v20_apply, val_main_v19_apply, val_main_v16_apply, val_main_v18_apply, val_main_v17_apply, bidx17]
  simp only [lidx16, ridx16, y_at, Ideal.addf_def]
  rfl

/-- The reference's last stage is `refOut` of the nine argument arrays. -/
theorem val_eq_refOut :
    val_main_v20 (F := Ideal) x gw gb tw tb pw pb ww wb = refOut x gw gb tw tb pw pb ww wb := by
  funext j
  obtain ⟨b, n, f, rfl⟩ : ∃ (b : Fin 4) (n : Fin 4096) (f : Fin 256), j = ix3 b n f := ⟨j 0, j 1, j 2, eq_ix3 j⟩
  exact out_at x gw gb tw tb pw pb ww wb b n f

/-- When every argument array holds real numbers, the reference's last stage is Spec's `out` at the array θᵀ g
    (`Marr`): the exchange of sums of Algebra.lean. (The output layer's two arrays enter both sides alike; their
    entries need not be real for the equation.) -/
theorem ref_eq (hx : Finite (S := SX) x) (hgw : Finite (S := SW) gw) (hgb : Finite (S := SB) gb)
    (htw : Finite (S := SW) tw) (htb : Finite (S := SB) tb) (hpw : Finite (S := SW) pw) (hpb : Finite (S := SB) pb)
    (hww : Finite (S := SW) ww) (hwb : Finite (S := SB) wb) :
    val_main_v20 (F := Ideal) x gw gb tw tb pw pb ww wb = Cert.Spec.out x pw pb (Cert.Spec.Marr x tw tb gw gb) ww wb :=
  (val_eq_refOut x gw gb tw tb pw pb ww wb).trans (refOut_eq ww wb hx hgw hgb htw htb hpw hpb)

end Cert.ReferenceIdeal.RefValue

end
-- ==== Proof.PreFinite.lean ====
/-
  From the precondition to "every entry of every argument array is a real number".

  The precondition is the conjunction, over the nine arrays, of `all (|a| < +∞)`. An extended real whose absolute value
  `max a (-a)` lies strictly below `+∞` is neither infinity, hence a real.
-/
import proofs.«174136_j47605417509124_1_alg».proof.Pre_finite_inputs
import proofs.«174136_j47605417509124_1_alg».proof.Proof.Spec
import Idealize.ShloMosaic.Lib.ReduceAll
import Idealize.ShloMosaic.Lib.Affine
import Idealize.ShloMosaic.Lib.ValueIdx
import Idealize.ShloMosaic.PureOps.Ideal

noncomputable section

namespace Cert.PreFinite

open Idealize.ShloMosaic

instance : Subsingleton Cert.Pre_finite_inputs.S_.Idx := ⟨fun a b => funext fun d => d.elim0⟩

/-- The f32 word with all exponent bits set and no fraction bit denotes `+∞`. -/
theorem ofBits_inf : Ideal.ofBits .f32 0x7F800000#32 = (⊤ : EReal) := by
  simp [Ideal.ofBits, Ideal.ieee]

/-- An extended real whose absolute value is strictly below `+∞` is a real number. -/
theorem real_of_abs_lt (x : EReal) (h : Ideal.cmp .olt (max x (-x)) (Ideal.ofBits .f32 0x7F800000#32) = 1#1) :
    ∃ r : ℝ, x = (r : EReal) := by
  rw [ofBits_inf] at h
  have h' : max x (-x) < ⊤ := by
    by_contra hn
    simp [Ideal.cmp, hn] at h
  induction x using EReal.rec with
  | bot => simp at h'
  | coe r => exact ⟨r, rfl⟩
  | top => simp at h'

open Cert.Pre_finite_inputs in
/-- The precondition, all ones, makes every entry of each of the nine arrays a real number. -/
theorem finite_of_pre [Cert.Pre_finite_inputs.Facts]
    (a0 : FVec Ideal S4x4096x256 .f32) (a1 : FVec Ideal S256x256 .f32) (a2 : FVec Ideal S256 .f32)
    (a3 : FVec Ideal S256x256 .f32) (a4 : FVec Ideal S256 .f32) (a5 : FVec Ideal S256x256 .f32) (a6 : FVec Ideal S256 .f32)
    (a7 : FVec Ideal S256x256 .f32) (a8 : FVec Ideal S256 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal)) := by
  have h0 := congrFun h ValueIdx.ix0
  dsimp only [fn, fn_part1, fn_part2, andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i),
    fun i => real_of_abs_lt _ (Host.reduce_andi_all _ _ _ _ _ e5 i),
    fun i => real_of_abs_lt _ (Host.reduce_andi_all _ _ _ _ _ e6 i),
    fun i => real_of_abs_lt _ (Host.reduce_andi_all _ _ _ _ _ e7 i),
    fun i => real_of_abs_lt _ (Host.reduce_andi_all _ _ _ _ _ e8 i)⟩

end Cert.PreFinite

end
-- ==== Proof.lean ====
/-
  A two-pass linear-attention block against its plain reference, over the extended reals.

  The kernel: pass one accumulates, per batch, the 256×256 matrix M = θᵀ g over eight tiles of 512 rows in a scratch
  buffer (zeroed at a batch's first tile) and writes it out; pass two computes ((φ M) · 2⁻¹²) Wᵀ + W_b + x tile by tile.
  The reference forms the 4096×4096 scores φ θᵀ / 4096 and multiplies by g. With every input entry a real number the two
  agree, entry by entry: (∑_j (∑_c φ_ic θ_jc) / 4096 · g_je) = (∑_d φ_id (∑_j θ_jd g_je)) · 2⁻¹², an exchange of finite sums
  (`Algebra.lean`), 2⁻¹² being exactly 1 / 4096.

  The three frames: each kernel pass is a region of @main run through its staging pipeline (`KI/`, `KB/`: the body at a
  point, what the scratch and the output block hold after each point, the region's record, the run of both regions);
  the reference's run is the composed term of its operations. `preserves` has no conjunct. The value: the arrays the
  two passes leave, read index by index (`R0Value`, `R1Value`, `KValue`), against the reference's term (`RefValue`).
-/
import proofs.«174136_j47605417509124_1_alg».proof.Defs
import proofs.«174136_j47605417509124_1_alg».proof.Proof.Gen.Kernel
import proofs.«174136_j47605417509124_1_alg».proof.Proof.Gen.KernelIdeal
import proofs.«174136_j47605417509124_1_alg».proof.Proof.Gen.ReferenceIdeal
import proofs.«174136_j47605417509124_1_alg».proof.Proof.Gen.Pre_finite_inputs
import proofs.«174136_j47605417509124_1_alg».proof.Proof.Gen.ReferenceIdeal.Run
import proofs.«174136_j47605417509124_1_alg».proof.Proof.Gen.ReferenceIdeal.Read
import proofs.«174136_j47605417509124_1_alg».proof.Proof.KB.Run
import proofs.«174136_j47605417509124_1_alg».proof.Proof.KI.Run
import proofs.«174136_j47605417509124_1_alg».proof.Proof.KValue
import proofs.«174136_j47605417509124_1_alg».proof.Proof.RefValue
import proofs.«174136_j47605417509124_1_alg».proof.Proof.PreFinite
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel := fun m ρ _ => Cert.Kernel.Hand.frame m ρ
theorem frame_ki [Cert.KernelIdeal.Facts] [Cert.Pre_finite_inputs.Facts] : Cert.frame_KernelIdeal := fun m ρ _ => Cert.KernelIdeal.Hand.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both idealized programs end with the result at `Spec.out` of the launch arrays: the kernel by its two passes' write-backs,
    the reference by the exchange of sums, which needs every entry real (the precondition). -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.HandValue.result m c, Cert.KernelIdeal.HandValue.run m ρ, ?_⟩
  refine (θ_run Cert.ReferenceIdeal.defs _ _).mono (fun _ h c => ⟨?_, (h c).2⟩) (Cert.ReferenceIdeal.Value.run (F := Ideal) m' ρ')
  obtain ⟨f0, f1, f2, f3, f4, f5, f6, f7, f8⟩ := Cert.PreFinite.finite_of_pre _ _ _ _ _ _ _ _ _ (hpre c)
  obtain ⟨e0, e1, e2, e3, e4, e5, e6, e7, e8⟩ := hagree c
  rw [(h c).1, Cert.ReferenceIdeal.Read.val_main_v20_eq, e0, e1, e2, e3, e4, e5, e6, e7, e8]
  exact Cert.ReferenceIdeal.RefValue.ref_eq _ _ _ _ _ _ _ _ _ f0 f1 f2 f3 f4 f5 f6 f7 f8

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
